-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x640000 32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S10000x128 : Shape := ⟨2, ![10000, 128]⟩
abbrev S740000x128 : Shape := ⟨2, ![740000, 128]⟩
abbrev S1x128 : Shape := ⟨2, ![1, 128]⟩
abbrev S100000x64 : Shape := ⟨2, ![100000, 64]⟩
abbrev S10000x64 : Shape := ⟨2, ![10000, 64]⟩
abbrev S740000x64 : Shape := ⟨2, ![740000, 64]⟩
abbrev S1x64 : Shape := ⟨2, ![1, 64]⟩

abbrev nBuf : Space → Nat
  | .hbm => 107
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x640000, .i32⟩
  | .hbm, ⟨10, _⟩ => ⟨S640000, .i32⟩
  | .hbm, ⟨11, _⟩ => ⟨S740000, .i32⟩
  | .hbm, ⟨12, _⟩ => ⟨S1x640000, .i32⟩
  | .hbm, ⟨13, _⟩ => ⟨S640000, .i32⟩
  | .hbm, ⟨14, _⟩ => ⟨S740000, .i32⟩
  | .hbm, ⟨15, _⟩ => ⟨S_, .f32⟩
  | .hbm, ⟨16, _⟩ => ⟨S740000, .f32⟩
  | .hbm, ⟨17, _⟩ => ⟨S_, .f32⟩
  | .hbm, ⟨18, _⟩ => ⟨S100000, .f32⟩
  | .hbm, ⟨19, _⟩ => ⟨S740000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S740000, .i32⟩
  | .hbm, ⟨31, _⟩ => ⟨S740000, .i1⟩
  | .hbm, ⟨32, _⟩ => ⟨S_, .i32⟩
  | .hbm, ⟨33, _⟩ => ⟨S740000, .i32⟩
  | .hbm, ⟨34, _⟩ => ⟨S740000, .i32⟩
  | .hbm, ⟨35, _⟩ => ⟨S740000, .i32⟩
  | .hbm, ⟨36, _⟩ => ⟨S740000x1, .i32⟩
  | .hbm, ⟨37, _⟩ => ⟨S740000, .f32⟩
  | .hbm, ⟨38, _⟩ => ⟨S_, .i32⟩
  | .hbm, ⟨39, _⟩ => ⟨S740000, .i32⟩
  | .hbm, ⟨40, _⟩ => ⟨S740000, .i1⟩
  | .hbm, ⟨41, _⟩ => ⟨S_, .i32⟩
  | .hbm, ⟨42, _⟩ => ⟨S740000, .i32⟩
  | .hbm, ⟨43, _⟩ => ⟨S740000, .i32⟩
  | .hbm, ⟨44, _⟩ => ⟨S740000, .i32⟩
  | .hbm, ⟨45, _⟩ => ⟨S740000x1, .i32⟩
  | .hbm, ⟨46, _⟩ => ⟨S740000, .f32⟩
  | .hbm, ⟨47, _⟩ => ⟨S740000, .f32⟩
  | .hbm, ⟨48, _⟩ => ⟨S100000x128, .bf16⟩
  | .hbm, ⟨49, _⟩ => ⟨S_, .i32⟩
  | .hbm, ⟨50, _⟩ => ⟨S740000, .i32⟩
  | .hbm, ⟨51, _⟩ => ⟨S740000, .i1⟩
  | .hbm, ⟨52, _⟩ => ⟨S_, .i32⟩
  | .hbm, ⟨53, _⟩ => ⟨S740000, .i32⟩
  | .hbm, ⟨54, _⟩ => ⟨S740000, .i32⟩
  | .hbm, ⟨55, _⟩ => ⟨S740000, .i32⟩
  | .hbm, ⟨56, _⟩ => ⟨S740000x1, .i32⟩
  | .hbm, ⟨57, _⟩ => ⟨S740000x128, .bf16⟩
  | .hbm, ⟨58, _⟩ => ⟨S740000x1, .f32⟩
  | .hbm, ⟨59, _⟩ => ⟨S740000x128, .f32⟩
  | .hbm, ⟨60, _⟩ => ⟨S740000x128, .f32⟩
  | .hbm, ⟨61, _⟩ => ⟨S740000x128, .f32⟩
  | .hbm, ⟨62, _⟩ => ⟨S_, .f32⟩
  | .hbm, ⟨63, _⟩ => ⟨S100000x128, .f32⟩
  | .hbm, ⟨64, _⟩ => ⟨S740000x1, .i32⟩
  | .hbm, ⟨65, _⟩ => ⟨S100000x128, .f32⟩
  | .hbm, ⟨66, _⟩ => ⟨S1x128, .f32⟩
  | .hbm, ⟨67, _⟩ => ⟨S100000x128, .bf16⟩
  | .hbm, ⟨68, _⟩ => ⟨S_, .i32⟩
  | .hbm, ⟨69, _⟩ => ⟨S740000, .i32⟩
  | .hbm, ⟨70, _⟩ => ⟨S740000, .i1⟩
  | .hbm, ⟨71, _⟩ => ⟨S_, .i32⟩
  | .hbm, ⟨72, _⟩ => ⟨S740000, .i32⟩
  | .hbm, ⟨73, _⟩ => ⟨S740000, .i32⟩
  | .hbm, ⟨74, _⟩ => ⟨S740000, .i32⟩
  | .hbm, ⟨75, _⟩ => ⟨S740000x1, .i32⟩
  | .hbm, ⟨76, _⟩ => ⟨S740000x128, .bf16⟩
  | .hbm, ⟨77, _⟩ => ⟨S740000x1, .f32⟩
  | .hbm, ⟨78, _⟩ => ⟨S740000x128, .f32⟩
  | .hbm, ⟨79, _⟩ => ⟨S740000x128, .f32⟩
  | .hbm, ⟨80, _⟩ => ⟨S740000x128, .f32⟩
  | .hbm, ⟨81, _⟩ => ⟨S_, .f32⟩
  | .hbm, ⟨82, _⟩ => ⟨S100000x128, .f32⟩
  | .hbm, ⟨83, _⟩ => ⟨S740000x1, .i32⟩
  | .hbm, ⟨84, _⟩ => ⟨S100000x128, .f32⟩
  | .hbm, ⟨85, _⟩ => ⟨S1x128, .f32⟩
  | .hbm, ⟨86, _⟩ => ⟨S100000x64, .bf16⟩
  | .hbm, ⟨87, _⟩ => ⟨S_, .i32⟩
  | .hbm, ⟨88, _⟩ => ⟨S740000, .i32⟩
  | .hbm, ⟨89, _⟩ => ⟨S740000, .i1⟩
  | .hbm, ⟨90, _⟩ => ⟨S_, .i32⟩
  | .hbm, ⟨91, _⟩ => ⟨S740000, .i32⟩
  | .hbm, ⟨92, _⟩ => ⟨S740000, .i32⟩
  | .hbm, ⟨93, _⟩ => ⟨S740000, .i32⟩
  | .hbm, ⟨94, _⟩ => ⟨S740000x1, .i32⟩
  | .hbm, ⟨95, _⟩ => ⟨S740000x64, .bf16⟩
  | .hbm, ⟨96, _⟩ => ⟨S740000x1, .f32⟩
  | .hbm, ⟨97, _⟩ => ⟨S740000x64, .f32⟩
  | .hbm, ⟨98, _⟩ => ⟨S740000x64, .f32⟩
  | .hbm, ⟨99, _⟩ => ⟨S740000x64, .f32⟩
  | .hbm, ⟨100, _⟩ => ⟨S_, .f32⟩
  | .hbm, ⟨101, _⟩ => ⟨S100000x64, .f32⟩
  | .hbm, ⟨102, _⟩ => ⟨S740000x1, .i32⟩
  | .hbm, ⟨103, _⟩ => ⟨S100000x64, .f32⟩
  | .hbm, ⟨104, _⟩ => ⟨S1x64, .f32⟩
  | .hbm, ⟨105, _⟩ => ⟨S100000x64, .f32⟩
  | .hbm, ⟨106, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .bf16⟩
  | .local _ .vmem, ⟨4, _⟩ => ⟨S10000x128, .bf16⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S128x128, .f32⟩
  | .local _ .vmem, ⟨9, _⟩ => ⟨S10000x128, .bf16⟩
  | .local _ .vmem, ⟨10, _⟩ => ⟨S10000x128, .bf16⟩
  | .local _ .vmem, ⟨11, _⟩ => ⟨S10000x128, .f32⟩
  | .local _ .vmem, ⟨12, _⟩ => ⟨S10000x128, .f32⟩
  | .local _ .vmem, ⟨13, _⟩ => ⟨S1x128, .f32⟩
  | .local _ .vmem, ⟨14, _⟩ => ⟨S128x64, .f32⟩
  | .local _ .vmem, ⟨15, _⟩ => ⟨S10000x64, .bf16⟩
  | .local _ .vmem, ⟨16, _⟩ => ⟨S10000x64, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_12 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_14 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S10000x128_S10000x128_0_0 : (Rect.unit (s := S10000x128) ![0, 0] S10000x128.size inb_S10000x128_S10000x128_0_0).PackedRows (EltTy.packing .bf16)
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  packedbf16_S10000x64_S10000x64_0_0 : (Rect.unit (s := S10000x64) ![0, 0] S10000x64.size inb_S10000x64_S10000x64_0_0).PackedRows (EltTy.packing .bf16)
  bcast_S740000x1_S740000x64_0_1 : S740000x1.BroadcastsInDim S740000x64 (![0, 1] : Fin 2 → Fin S740000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S10000x128_S128x128_S10000x128_1_0_0_1_n_n_wf : DotDims.WF S10000x128 S128x128 S10000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  dot_S10000x128_S128x64_S10000x64_1_0_0_1_n_n_wf : DotDims.WF S10000x128 S128x64 S10000x64 [1] [0] [0] [1] [] []
  gather_S100000x64_S740000x1_S740000x64_1_0_n_n_0_1_164_wf : GatherDims.WF S100000x64 S740000x1 S740000x64 [1] [0] [] [0] [] 1 ![1, 64]
  scatter_S100000x64_S740000x1_S740000x64_1_0_0_1_wf : ScatterDims.WF S100000x64 S740000x1 S740000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .bf16 = 32 ∨ (Rect.block (s := S100000x128) S10000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .bf16 = 32 ∨ (Rect.block (s := S100000x128) S10000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .bf16 = 32 ∨ (Rect.block (s := S100000x64) S10000x64.size (cc2_transform_3 i) (hinb2_3 i)).WholeWords (EltTy.packing .bf16)

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S740000x1_S740000x64_1_0_n_n_0_1_164 : GatherDims S100000x64 S740000x1 S740000x64 where
  offsetDims := [1]
  collapsedSliceDims := [0]
  operandBatchingDims := []
  startIndicesBatchingDims := []
  startIndexMap := [0]
  indexVectorDim := 1
  sliceSizes := ![1, 64]
  wf := gather_S100000x64_S740000x1_S740000x64_1_0_n_n_0_1_164_wf
def scatter_S100000x64_S740000x1_S740000x64_1_0_0_1 : ScatterDims S100000x64 S740000x1 S740000x64 where
  updateWindowDims := [1]
  insertedWindowDims := [0]
  scatterDimsToOperandDims := [0]
  indexVectorDim := 1
  wf := scatter_S100000x64_S740000x1_S740000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S740000x128 : Shape := ⟨2, ![740000, 128]⟩
abbrev S1x128 : Shape := ⟨2, ![1, 128]⟩
abbrev S100000x64 : Shape := ⟨2, ![100000, 64]⟩
abbrev S740000x64 : Shape := ⟨2, ![740000, 64]⟩
abbrev S1x64 : Shape := ⟨2, ![1, 64]⟩

abbrev nBuf : Space → Nat
  | .hbm => 114
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x640000, .i32⟩
  | .hbm, ⟨10, _⟩ => ⟨S640000, .i32⟩
  | .hbm, ⟨11, _⟩ => ⟨S740000, .i32⟩
  | .hbm, ⟨12, _⟩ => ⟨S1x640000, .i32⟩
  | .hbm, ⟨13, _⟩ => ⟨S640000, .i32⟩
  | .hbm, ⟨14, _⟩ => ⟨S740000, .i32⟩
  | .hbm, ⟨15, _⟩ => ⟨S_, .f32⟩
  | .hbm, ⟨16, _⟩ => ⟨S740000, .f32⟩
  | .hbm, ⟨17, _⟩ => ⟨S_, .f32⟩
  | .hbm, ⟨18, _⟩ => ⟨S100000, .f32⟩
  | .hbm, ⟨19, _⟩ => ⟨S740000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S740000, .i32⟩
  | .hbm, ⟨31, _⟩ => ⟨S740000, .i1⟩
  | .hbm, ⟨32, _⟩ => ⟨S_, .i32⟩
  | .hbm, ⟨33, _⟩ => ⟨S740000, .i32⟩
  | .hbm, ⟨34, _⟩ => ⟨S740000, .i32⟩
  | .hbm, ⟨35, _⟩ => ⟨S740000, .i32⟩
  | .hbm, ⟨36, _⟩ => ⟨S740000x1, .i32⟩
  | .hbm, ⟨37, _⟩ => ⟨S740000, .f32⟩
  | .hbm, ⟨38, _⟩ => ⟨S_, .i32⟩
  | .hbm, ⟨39, _⟩ => ⟨S740000, .i32⟩
  | .hbm, ⟨40, _⟩ => ⟨S740000, .i1⟩
  | .hbm, ⟨41, _⟩ => ⟨S_, .i32⟩
  | .hbm, ⟨42, _⟩ => ⟨S740000, .i32⟩
  | .hbm, ⟨43, _⟩ => ⟨S740000, .i32⟩
  | .hbm, ⟨44, _⟩ => ⟨S740000, .i32⟩
  | .hbm, ⟨45, _⟩ => ⟨S740000x1, .i32⟩
  | .hbm, ⟨46, _⟩ => ⟨S740000, .f32⟩
  | .hbm, ⟨47, _⟩ => ⟨S740000, .f32⟩
  | .hbm, ⟨48, _⟩ => ⟨S100000x128, .f32⟩
  | .hbm, ⟨49, _⟩ => ⟨S_, .i32⟩
  | .hbm, ⟨50, _⟩ => ⟨S740000, .i32⟩
  | .hbm, ⟨51, _⟩ => ⟨S740000, .i1⟩
  | .hbm, ⟨52, _⟩ => ⟨S_, .i32⟩
  | .hbm, ⟨53, _⟩ => ⟨S740000, .i32⟩
  | .hbm, ⟨54, _⟩ => ⟨S740000, .i32⟩
  | .hbm, ⟨55, _⟩ => ⟨S740000, .i32⟩
  | .hbm, ⟨56, _⟩ => ⟨S740000x1, .i32⟩
  | .hbm, ⟨57, _⟩ => ⟨S740000x128, .f32⟩
  | .hbm, ⟨58, _⟩ => ⟨S740000x1, .f32⟩
  | .hbm, ⟨59, _⟩ => ⟨S740000x128, .f32⟩
  | .hbm, ⟨60, _⟩ => ⟨S740000x128, .f32⟩
  | .hbm, ⟨61, _⟩ => ⟨S_, .f32⟩
  | .hbm, ⟨62, _⟩ => ⟨S100000x128, .f32⟩
  | .hbm, ⟨63, _⟩ => ⟨S740000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S_, .i32⟩
  | .hbm, ⟨73, _⟩ => ⟨S740000, .i32⟩
  | .hbm, ⟨74, _⟩ => ⟨S740000, .i1⟩
  | .hbm, ⟨75, _⟩ => ⟨S_, .i32⟩
  | .hbm, ⟨76, _⟩ => ⟨S740000, .i32⟩
  | .hbm, ⟨77, _⟩ => ⟨S740000, .i32⟩
  | .hbm, ⟨78, _⟩ => ⟨S740000, .i32⟩
  | .hbm, ⟨79, _⟩ => ⟨S740000x1, .i32⟩
  | .hbm, ⟨80, _⟩ => ⟨S740000x128, .f32⟩
  | .hbm, ⟨81, _⟩ => ⟨S740000x1, .f32⟩
  | .hbm, ⟨82, _⟩ => ⟨S740000x128, .f32⟩
  | .hbm, ⟨83, _⟩ => ⟨S740000x128, .f32⟩
  | .hbm, ⟨84, _⟩ => ⟨S_, .f32⟩
  | .hbm, ⟨85, _⟩ => ⟨S100000x128, .f32⟩
  | .hbm, ⟨86, _⟩ => ⟨S740000x1, .i32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S_, .f32⟩
  | .hbm, ⟨92, _⟩ => ⟨S100000x128, .f32⟩
  | .hbm, ⟨93, _⟩ => ⟨S100000x128, .f32⟩
  | .hbm, ⟨94, _⟩ => ⟨S100000x64, .f32⟩
  | .hbm, ⟨95, _⟩ => ⟨S_, .i32⟩
  | .hbm, ⟨96, _⟩ => ⟨S740000, .i32⟩
  | .hbm, ⟨97, _⟩ => ⟨S740000, .i1⟩
  | .hbm, ⟨98, _⟩ => ⟨S_, .i32⟩
  | .hbm, ⟨99, _⟩ => ⟨S740000, .i32⟩
  | .hbm, ⟨100, _⟩ => ⟨S740000, .i32⟩
  | .hbm, ⟨101, _⟩ => ⟨S740000, .i32⟩
  | .hbm, ⟨102, _⟩ => ⟨S740000x1, .i32⟩
  | .hbm, ⟨103, _⟩ => ⟨S740000x64, .f32⟩
  | .hbm, ⟨104, _⟩ => ⟨S740000x1, .f32⟩
  | .hbm, ⟨105, _⟩ => ⟨S740000x64, .f32⟩
  | .hbm, ⟨106, _⟩ => ⟨S740000x64, .f32⟩
  | .hbm, ⟨107, _⟩ => ⟨S_, .f32⟩
  | .hbm, ⟨108, _⟩ => ⟨S100000x64, .f32⟩
  | .hbm, ⟨109, _⟩ => ⟨S740000x1, .i32⟩
  | .hbm, ⟨110, _⟩ => ⟨S100000x64, .f32⟩
  | .hbm, ⟨111, _⟩ => ⟨S1x64, .f32⟩
  | .hbm, ⟨112, _⟩ => ⟨S100000x64, .f32⟩
  | .hbm, ⟨113, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S740000x1_S740000x64_0_1 : S740000x1.BroadcastsInDim S740000x64 (![0, 1] : Fin 2 → Fin S740000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S100000x128_S128x128_S100000x128_1_0_0_1_n_n_wf : DotDims.WF S100000x128 S128x128 S100000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  dot_S100000x128_S128x64_S100000x64_1_0_0_1_n_n_wf : DotDims.WF S100000x128 S128x64 S100000x64 [1] [0] [0] [1] [] []
  gather_S100000x64_S740000x1_S740000x64_1_0_n_n_0_1_164_wf : GatherDims.WF S100000x64 S740000x1 S740000x64 [1] [0] [] [0] [] 1 ![1, 64]
  scatter_S100000x64_S740000x1_S740000x64_1_0_0_1_wf : ScatterDims.WF S100000x64 S740000x1 S740000x64 [1] [0] [0] 1

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S740000x1_S740000x64_1_0_n_n_0_1_164 : GatherDims S100000x64 S740000x1 S740000x64 where
  offsetDims := [1]
  collapsedSliceDims := [0]
  operandBatchingDims := []
  startIndicesBatchingDims := []
  startIndexMap := [0]
  indexVectorDim := 1
  sliceSizes := ![1, 64]
  wf := gather_S100000x64_S740000x1_S740000x64_1_0_n_n_0_1_164_wf
def scatter_S100000x64_S740000x1_S740000x64_1_0_0_1 : ScatterDims S100000x64 S740000x1 S740000x64 where
  updateWindowDims := [1]
  insertedWindowDims := [0]
  scatterDimsToOperandDims := [0]
  indexVectorDim := 1
  wf := scatter_S100000x64_S740000x1_S740000x64_1_0_0_1_wf

class Facts : Prop extends Facts₀ where

variable [Facts]
-- ==== Proof.KernelRun.lean ====
/-
  The idealized kernel's run, with what it leaves in the result buffer named.

  @main is nine segments: three stretches of host operations, the first projection, a stretch (the first
  neighbourhood sum), the second projection, a stretch, the third projection, and the last stretch (the last
  neighbourhood sum and the output bias). The contents of every buffer at each boundary are a fold from the launch
  memory: a host stretch applies its operations in order; a region leaves its arrays at what its write-backs leave
  and every other buffer as it found it. Every weakly fair execution terminates without a fault, and in the final
  state the result buffer holds the last fold's contents and each argument array is as launched.
-/
import proofs.«170115_j5995774345336_2_alg».proof.Proof.Gen.KernelIdeal.Frame

set_option maxRecDepth 16384

noncomputable section

namespace Cert.Gcn.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters, every weakly fair execution of @main on the TensorCores terminates, nothing
    faulting; the final state has the result buffer at the last boundary's contents (`W9`) and the argument arrays as
    launched. The segments, their chaining and the launch are those of the frame; only the reading of the last thread
    state differs: it also reads the result buffer, which is among the unscoped buffers the state holds. -/
theorem run : θ_run defs (onTc (τ := τ) (main (F := F))) ⟨m, fun _ => 0, ρ⟩ (fun r => ∀ c : Dev nD,
      r.2.mem ((c.tc : Thread nD τ).loc main_v79) = W9 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v79 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.Gcn.KernelRun

end
-- ==== Proof.Spec.lean ====
/-
  The two whole-array functions a graph-convolution layer's dense part is made of, over the extended reals.

  `dense a w` is the matrix product: entry (r, c) is `∑ k, a[r, k] · w[k, c]`. `biasRelu a b` adds the
  one-row matrix `b` to every row of `a` and clamps at zero: entry (r, k) is `max (a[r, k] + b[0, k]) 0`.
  A layer is `dense (biasRelu agg b) w` where `agg` is the previous layer's neighbourhood sum; the first
  layer is `dense x w` alone.
-/
import Idealize.ShloMosaic.Lib.ValueIdx
import Idealize.ShloMosaic.PureOps.Ideal

noncomputable section

namespace Cert.Gcn

open Idealize.ShloMosaic Idealize.ShloMosaic.ValueIdx

/-- A matrix of extended reals with `r` rows and `c` columns. -/
abbrev Mat (r c : Nat) : Type := (⟨2, ![r, c]⟩ : Shape).Idx → EReal

/-- The matrix product: entry (r, c) sums row `r` of `a` against column `c` of `w`. -/
def dense {n d e : Nat} (a : Mat n d) (w : Mat d e) : Mat n e :=
  fun i => ∑ k : Fin d, a (ix2 (i 0) k) * w (ix2 k (i 1))

/-- The one-row matrix `b` added to every row of `a`, clamped at zero. -/
def biasRelu {n d : Nat} (a : Mat n d) (b : Mat 1 d) : Mat n d :=
  fun i => max (a i + b (ix2 (0 : Fin 1) (i 1))) 0

theorem dense_apply {n d e : Nat} (a : Mat n d) (w : Mat d e) (r : Fin n) (c : Fin e) :
    dense a w (ix2 r c) = ∑ k : Fin d, a (ix2 r k) * w (ix2 k c) := rfl

theorem biasRelu_apply {n d : Nat} (a : Mat n d) (b : Mat 1 d) (r : Fin n) (k : Fin d) :
    biasRelu a b (ix2 r k) = max (a (ix2 r k) + b (ix2 (0 : Fin 1) k)) 0 := rfl

end Cert.Gcn

end
-- ==== Proof.Stages.lean ====
/-
  The graph side of the network, as functions of the edge list alone, and a layer's output from its projected
  features — the host operations both programs apply, op for op, around their dense projections.

  From the edge list `ei` (two rows of 640000 node numbers): the 740000 source endpoints `src` and target endpoints
  `dst` (the list's rows, then every node once: the self-loops); `wrap`, which adds the node count to a negative
  number; the in-degree `deg` (ones summed into the targets); `dinv`, its inverse square root where the degree is
  positive and zero elsewhere; the edge weight `norm` = dinv[src] · dinv[dst]. A neighbourhood sum `agg h` gathers
  the projected features `h` at the sources, scales each gathered row by its edge's weight and sums the rows into
  the targets. The reference's output is three layers of: project (a matrix product), sum over neighbourhoods, add the
  bias row — clamped at zero between layers.
-/
import proofs.«170115_j5995774345336_2_alg».proof.ReferenceIdeal
import proofs.«170115_j5995774345336_2_alg».proof.Proof.Gen.ReferenceIdeal
import proofs.«170115_j5995774345336_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Gcn.Stage

open Cert.ReferenceIdeal Cert.ReferenceIdeal.Gen Idealize.ShloMosaic Idealize.ShloMosaic.TcCoe Idealize.ShloMosaic.ValueIdx

abbrev Edges : Type := IVec S2x640000 32
abbrev Ends : Type := IVec S740000 32
abbrev Feat128 : Type := FVec Ideal S100000x128 .f32
abbrev Feat64 : Type := FVec Ideal S100000x64 .f32

/-- The source endpoints: row 0 of the edge list, then every node once. -/
def src (ei : Edges) : Ends :=
  concatenate S740000 0 [⟨S640000, shapeCast _ (extractStridedSlice S1x640000 ![0, 0] ei slices_S2x640000_S1x640000_0_0) shapeCasts_S1x640000_S640000⟩, ⟨S100000, iotaInDim S100000 32 0⟩] concatenates_S640000_S100000_S740000_d0

/-- The target endpoints: row 1 of the edge list, then every node once. -/
def dst (ei : Edges) : Ends :=
  concatenate S740000 0 [⟨S640000, shapeCast _ (extractStridedSlice S1x640000 ![1, 0] ei slices_S2x640000_S1x640000_1_0) shapeCasts_S1x640000_S640000⟩, ⟨S100000, iotaInDim S100000 32 0⟩] concatenates_S640000_S100000_S740000_d0

/-- A negative node number counted from the end: the node count added to it. -/
def wrap (v : Ends) : Ends :=
  select (cmpi .slt v (broadcastInDim S740000 ![] bcast_S_S740000 (constantI S_ 32 0#32)))
    (addi v (broadcastInDim S740000 ![] bcast_S_S740000 (constantI S_ 32 100000#32))) v

/-- The in-degree of every node: a one summed into each edge's target. -/
def deg (ei : Edges) : FVec Ideal S100000 .f32 :=
  Host.scatterAdd scatter_S100000_S740000x1_S740000_n_0_0_1
    (broadcastInDim S100000 ![] bcast_S_S100000 (constant (F := Ideal) S_ .f32 0x00000000#32))
    (broadcastInDim S740000x1 ![0] bcast_S740000_S740000x1_0 (dst ei))
    (broadcastInDim S740000 ![] bcast_S_S740000 (constant (F := Ideal) S_ .f32 0x3F800000#32))

/-- The inverse square root of the degree where it is positive, zero elsewhere. -/
def dinv (ei : Edges) : FVec Ideal S100000 .f32 :=
  select (cmpf .ogt (deg ei) (broadcastInDim S100000 ![] bcast_S_S100000 (constant (F := Ideal) S_ .f32 0x00000000#32)))
    (Host.rsqrt (deg ei))
    (broadcastInDim S100000 ![] bcast_S_S100000 (id (constant (F := Ideal) S_ .f32 0x00000000#32)))

/-- An edge's weight: the product of its endpoints' inverse square-root degrees. -/
def norm (ei : Edges) : FVec Ideal S740000 .f32 :=
  mulf (Host.gather gather_S100000_S740000x1_S740000_n_0_n_n_0_1_1 (dinv ei) (broadcastInDim S740000x1 ![0] bcast_S740000_S740000x1_0 (wrap (src ei))))
    (Host.gather gather_S100000_S740000x1_S740000_n_0_n_n_0_1_1 (dinv ei) (broadcastInDim S740000x1 ![0] bcast_S740000_S740000x1_0 (wrap (dst ei))))

/-- A neighbourhood sum of 128-wide features over given endpoints `s`, `d` and edge weights `n`: rows gathered at the
    sources, scaled by the weights, summed into the targets. -/
def aggWith128 (h : Feat128) (s d : Ends) (n : FVec Ideal S740000 .f32) : Feat128 :=
  Host.scatterAdd scatter_S100000x128_S740000x1_S740000x128_1_0_0_1
    (broadcastInDim S100000x128 ![] bcast_S_S100000x128 (constant (F := Ideal) S_ .f32 0x00000000#32))
    (broadcastInDim S740000x1 ![0] bcast_S740000_S740000x1_0 d)
    (mulf (Host.gather gather_S100000x128_S740000x1_S740000x128_1_0_n_n_0_1_1128 h (broadcastInDim S740000x1 ![0] bcast_S740000_S740000x1_0 (wrap s)))
      (broadcastInDim S740000x128 ![0, 1] bcast_S740000x1_S740000x128_0_1 (broadcastInDim S740000x1 ![0] bcast_S740000_S740000x1_0 n)))

/-- The same for 64-wide features. -/
def aggWith64 (h : Feat64) (s d : Ends) (n : FVec Ideal S740000 .f32) : Feat64 :=
  Host.scatterAdd scatter_S100000x64_S740000x1_S740000x64_1_0_0_1
    (broadcastInDim S100000x64 ![] bcast_S_S100000x64 (constant (F := Ideal) S_ .f32 0x00000000#32))
    (broadcastInDim S740000x1 ![0] bcast_S740000_S740000x1_0 d)
    (mulf (Host.gather gather_S100000x64_S740000x1_S740000x64_1_0_n_n_0_1_164 h (broadcastInDim S740000x1 ![0] bcast_S740000_S740000x1_0 (wrap s)))
      (broadcastInDim S740000x64 ![0, 1] bcast_S740000x1_S740000x64_0_1 (broadcastInDim S740000x1 ![0] bcast_S740000_S740000x1_0 n)))

/-- The neighbourhood sum over the graph the edge list describes. -/
def agg128 (h : Feat128) (ei : Edges) : Feat128 := aggWith128 h (src ei) (dst ei) (norm ei)

/-- The same for 64-wide features. -/
def agg64 (h : Feat64) (ei : Edges) : Feat64 := aggWith64 h (src ei) (dst ei) (norm ei)

/-- The degree test and the two pieces the masked select of `dinv` is made of, named: what the host has computed just
    before the select. -/
def degPositive (ei : Edges) : IVec S100000 1 :=
  cmpf .ogt (deg ei) (broadcastInDim S100000 ![] bcast_S_S100000 (constant (F := Ideal) S_ .f32 0x00000000#32))

/-- A bias vector as rows: the same 128 numbers in every one of the 100000 rows. -/
def rows128 (b : FVec Ideal S128 .f32) : Feat128 :=
  broadcastInDim S100000x128 ![0, 1] bcast_S1x128_S100000x128_0_1 (broadcastInDim S1x128 ![1] bcast_S128_S1x128_1 b)

/-- The same for 64 numbers. -/
def rows64 (b : FVec Ideal S64 .f32) : Feat64 :=
  broadcastInDim S100000x64 ![0, 1] bcast_S1x64_S100000x64_0_1 (broadcastInDim S1x64 ![1] bcast_S64_S1x64_1 b)

/-- Clamping at zero. -/
def relu128 (a : Feat128) : Feat128 :=
  maximumf a (broadcastInDim S100000x128 ![] bcast_S_S100000x128 (constant (F := Ideal) S_ .f32 0x00000000#32))

/-- The reference's output, layer by layer, with its own matrix products. -/
def refOut (x : Feat128) (ei : Edges) (w1 : FVec Ideal S128x128 .f32) (b1 : FVec Ideal S128 .f32)
    (w2 : FVec Ideal S128x128 .f32) (b2 : FVec Ideal S128 .f32)
    (w3 : FVec Ideal S128x64 .f32) (b3 : FVec Ideal S64 .f32) : Feat64 :=
  addf (agg64 (Host.dotGeneral dot_S100000x128_S128x64_S100000x64_1_0_0_1_n_n none
      (relu128 (addf (agg128 (Host.dotGeneral dot_S100000x128_S128x128_S100000x128_1_0_0_1_n_n none
          (relu128 (addf (agg128 (Host.dotGeneral dot_S100000x128_S128x128_S100000x128_1_0_0_1_n_n none x w1) ei) (rows128 b1))) w2) ei) (rows128 b2))) w3) ei)
    (rows64 b3)

/-- The same output with every matrix product written as the plain sum `dense` and each bias-and-clamp as
    `biasRelu` of the bias laid out as a one-row matrix — the form the kernel's three regions compute. -/
def kernelOut (x : Feat128) (ei : Edges) (w1 : FVec Ideal S128x128 .f32) (b1 : Mat 1 128)
    (w2 : FVec Ideal S128x128 .f32) (b2 : Mat 1 128) (w3 : FVec Ideal S128x64 .f32) (b3 : FVec Ideal S64 .f32) : Feat64 :=
  addf (agg64 (dense (biasRelu (agg128 (dense (biasRelu (agg128 (dense x w1) ei) b1) w2) ei) b2) w3) ei) (rows64 b3)

end Cert.Gcn.Stage

end
-- ==== Proof.CastsK.lean ====
/-
  Laying a value into a buffer whose type is the value's own, or reading it back, changes nothing: the transports the
  outlined functions' operations carry are identities.
-/
import proofs.«170115_j5995774345336_2_alg».proof.Proof.Gen.KernelIdeal.Launch
import Idealize.ShloMosaic.Lib.StableHlo.Run
import Idealize.ShloMosaic.PureOps.Ideal

noncomputable section

namespace Cert.Gcn.CastsK

open Cert.KernelIdeal Cert.KernelIdeal.Gen Idealize.ShloMosaic Idealize.ShloMosaic.TcCoe Idealize.SL.Sem

theorem toBuf_self {T : BufTy} (r : Ref sig .tc) (h1 : r.ty = T) (h2 : r.space ≠ .host) (h3 : r.isScoped = false) (v : T.Contents (Elt Ideal)) :
    HEq ((StableHlo.TRef.of r h1 h2 h3).toBuf v) v := by
  subst h1; rfl
theorem ofBuf_self {T : BufTy} (r : Ref sig .tc) (h1 : r.ty = T) (h2 : r.space ≠ .host) (h3 : r.isScoped = false) (v : r.ty.Contents (Elt Ideal)) :
    HEq ((StableHlo.TRef.of r h1 h2 h3).ofBuf v) v := by
  subst h1; rfl

theorem toBuf_cst_2 (h1 h2 h3) (v : (⟨S_, .f32⟩ : BufTy).Contents (Elt Ideal)) :
    (StableHlo.TRef.of (T := ⟨S_, .f32⟩) main_cst_2 h1 h2 h3).toBuf v = v := eq_of_heq (toBuf_self _ h1 h2 h3 v)
theorem ofBuf_cst_2 (h1 h2 h3) (v : (⟨S_, .f32⟩ : BufTy).Contents (Elt Ideal)) :
    (StableHlo.TRef.of (T := ⟨S_, .f32⟩) main_cst_2 h1 h2 h3).ofBuf v = v := eq_of_heq (ofBuf_self _ h1 h2 h3 v)
theorem toBuf_call0_v0 (h1 h2 h3) (v : (⟨S_, .f32⟩ : BufTy).Contents (Elt Ideal)) :
    (StableHlo.TRef.of (T := ⟨S_, .f32⟩) main_call0_v0 h1 h2 h3).toBuf v = v := eq_of_heq (toBuf_self _ h1 h2 h3 v)
theorem ofBuf_call0_v0 (h1 h2 h3) (v : (⟨S_, .f32⟩ : BufTy).Contents (Elt Ideal)) :
    (StableHlo.TRef.of (T := ⟨S_, .f32⟩) main_call0_v0 h1 h2 h3).ofBuf v = v := eq_of_heq (ofBuf_self _ h1 h2 h3 v)
theorem toBuf_call0_v1 (h1 h2 h3) (v : (⟨S100000, .f32⟩ : BufTy).Contents (Elt Ideal)) :
    (StableHlo.TRef.of (T := ⟨S100000, .f32⟩) main_call0_v1 h1 h2 h3).toBuf v = v := eq_of_heq (toBuf_self _ h1 h2 h3 v)
theorem ofBuf_call0_v1 (h1 h2 h3) (v : (⟨S100000, .f32⟩ : BufTy).Contents (Elt Ideal)) :
    (StableHlo.TRef.of (T := ⟨S100000, .f32⟩) main_call0_v1 h1 h2 h3).ofBuf v = v := eq_of_heq (ofBuf_self _ h1 h2 h3 v)
theorem toBuf_v12 (h1 h2 h3) (v : (⟨S100000, .i1⟩ : BufTy).Contents (Elt Ideal)) :
    (StableHlo.TRef.of (T := ⟨S100000, .i1⟩) main_v12 h1 h2 h3).toBuf v = v := eq_of_heq (toBuf_self _ h1 h2 h3 v)
theorem ofBuf_v12 (h1 h2 h3) (v : (⟨S100000, .i1⟩ : BufTy).Contents (Elt Ideal)) :
    (StableHlo.TRef.of (T := ⟨S100000, .i1⟩) main_v12 h1 h2 h3).ofBuf v = v := eq_of_heq (ofBuf_self _ h1 h2 h3 v)
theorem toBuf_v13 (h1 h2 h3) (v : (⟨S100000, .f32⟩ : BufTy).Contents (Elt Ideal)) :
    (StableHlo.TRef.of (T := ⟨S100000, .f32⟩) main_v13 h1 h2 h3).toBuf v = v := eq_of_heq (toBuf_self _ h1 h2 h3 v)
theorem ofBuf_v13 (h1 h2 h3) (v : (⟨S100000, .f32⟩ : BufTy).Contents (Elt Ideal)) :
    (StableHlo.TRef.of (T := ⟨S100000, .f32⟩) main_v13 h1 h2 h3).ofBuf v = v := eq_of_heq (ofBuf_self _ h1 h2 h3 v)
theorem toBuf_v14 (h1 h2 h3) (v : (⟨S100000, .f32⟩ : BufTy).Contents (Elt Ideal)) :
    (StableHlo.TRef.of (T := ⟨S100000, .f32⟩) main_v14 h1 h2 h3).toBuf v = v := eq_of_heq (toBuf_self _ h1 h2 h3 v)
theorem ofBuf_v14 (h1 h2 h3) (v : (⟨S100000, .f32⟩ : BufTy).Contents (Elt Ideal)) :
    (StableHlo.TRef.of (T := ⟨S100000, .f32⟩) main_v14 h1 h2 h3).ofBuf v = v := eq_of_heq (ofBuf_self _ h1 h2 h3 v)

end Cert.Gcn.CastsK

end
-- ==== Proof.GraphK.lean ====
/-
  The kernel's graph side: what its first three stretches of host operations leave, as functions of the edge list.
-/
import proofs.«170115_j5995774345336_2_alg».proof.Proof.Gen.KernelIdeal.Launch
import proofs.«170115_j5995774345336_2_alg».proof.Proof.Stages
import proofs.«170115_j5995774345336_2_alg».proof.Proof.CastsK
import Idealize.ShloMosaic.Lib.StableHlo.Run

set_option maxRecDepth 16384

noncomputable section

namespace Cert.Gcn.GraphK

open Cert.KernelIdeal Cert.KernelIdeal.Gen Idealize.ShloMosaic Idealize.ShloMosaic.TcCoe Idealize.SL.Sem
open Cert.Gcn Cert.Gcn.CastsK

variable (V : Valuation τ sig (Elt Ideal))

/-! ### The graph side, stretch by stretch, over any starting contents `V`

Three stretches compute it: the first the endpoints, the degree test and the degree's inverse square root; the second
(the outlined masked select) `dinv`; the third the edge weights. Each is read with the contents it starts from kept
abstract, so that a stretch's term is over the few buffers it reads and not over the whole program before it. -/

set_option maxHeartbeats 16000000 in
theorem g0_v3 : StableHlo.after hostOps0 V (Proc.devRef .tc main_v3) = Stage.src (V (Proc.devRef .tc main_arg1)) := by
  after_results <;> rfl
set_option maxHeartbeats 16000000 in
theorem g0_v6 : StableHlo.after hostOps0 V (Proc.devRef .tc main_v6) = Stage.dst (V (Proc.devRef .tc main_arg1)) := by
  after_results <;> rfl
set_option maxHeartbeats 16000000 in
theorem g0_v12 : StableHlo.after hostOps0 V (Proc.devRef .tc main_v12) = Stage.degPositive (V (Proc.devRef .tc main_arg1)) := by
  after_results <;> rfl
set_option maxHeartbeats 16000000 in
theorem g0_v13 : StableHlo.after hostOps0 V (Proc.devRef .tc main_v13) = Host.rsqrt (Stage.deg (V (Proc.devRef .tc main_arg1))) := by
  after_results <;> rfl
set_option maxHeartbeats 16000000 in
theorem g0_cst2 : StableHlo.after hostOps0 V (Proc.devRef .tc main_cst_2) = constant (F := Ideal) S_ .f32 0x00000000#32 := by
  after_results <;> rfl
set_option maxHeartbeats 16000000 in
theorem g0_arg0 : StableHlo.after hostOps0 V (Proc.devRef .tc main_arg0) = V (Proc.devRef .tc main_arg0) := by
  after_results <;> rfl
set_option maxHeartbeats 16000000 in
theorem g0_arg1 : StableHlo.after hostOps0 V (Proc.devRef .tc main_arg1) = V (Proc.devRef .tc main_arg1) := by
  after_results <;> rfl
set_option maxHeartbeats 16000000 in
theorem g0_arg2 : StableHlo.after hostOps0 V (Proc.devRef .tc main_arg2) = V (Proc.devRef .tc main_arg2) := by
  after_results <;> rfl
set_option maxHeartbeats 16000000 in
theorem g0_arg3 : StableHlo.after hostOps0 V (Proc.devRef .tc main_arg3) = V (Proc.devRef .tc main_arg3) := by
  after_results <;> rfl
set_option maxHeartbeats 16000000 in
theorem g0_arg4 : StableHlo.after hostOps0 V (Proc.devRef .tc main_arg4) = V (Proc.devRef .tc main_arg4) := by
  after_results <;> rfl
set_option maxHeartbeats 16000000 in
theorem g0_arg5 : StableHlo.after hostOps0 V (Proc.devRef .tc main_arg5) = V (Proc.devRef .tc main_arg5) := by
  after_results <;> rfl
set_option maxHeartbeats 16000000 in
theorem g0_arg6 : StableHlo.after hostOps0 V (Proc.devRef .tc main_arg6) = V (Proc.devRef .tc main_arg6) := by
  after_results <;> rfl
set_option maxHeartbeats 16000000 in
theorem g0_arg7 : StableHlo.after hostOps0 V (Proc.devRef .tc main_arg7) = V (Proc.devRef .tc main_arg7) := by
  after_results <;> rfl

set_option maxHeartbeats 16000000 in
/-- The masked select: the inverse square root where the degree is positive, zero elsewhere. -/
theorem g1_v14 : StableHlo.after hostOps0_1 (StableHlo.after hostOps0 V) (Proc.devRef .tc main_v14) = Stage.dinv (V (Proc.devRef .tc main_arg1)) := by
  have h12 := g0_v12 V
  have h13 := g0_v13 V
  have hc := g0_cst2 V
  generalize StableHlo.after hostOps0 V = U at h12 h13 hc ⊢
  after_results
  rw [h12, h13, hc]
  simp only [toBuf_cst_2, ofBuf_cst_2, toBuf_call0_v0, ofBuf_call0_v0, toBuf_call0_v1, ofBuf_call0_v1, toBuf_v12, ofBuf_v12, toBuf_v13, ofBuf_v13, toBuf_v14, ofBuf_v14]
  rfl
set_option maxHeartbeats 16000000 in
theorem g1_v3 : StableHlo.after hostOps0_1 (StableHlo.after hostOps0 V) (Proc.devRef .tc main_v3) = Stage.src (V (Proc.devRef .tc main_arg1)) := by
  have h := g0_v3 V
  generalize StableHlo.after hostOps0 V = U at h ⊢
  after_results
  exact h
set_option maxHeartbeats 16000000 in
theorem g1_v6 : StableHlo.after hostOps0_1 (StableHlo.after hostOps0 V) (Proc.devRef .tc main_v6) = Stage.dst (V (Proc.devRef .tc main_arg1)) := by
  have h := g0_v6 V
  generalize StableHlo.after hostOps0 V = U at h ⊢
  after_results
  exact h
set_option maxHeartbeats 16000000 in
theorem g1_arg0 : StableHlo.after hostOps0_1 (StableHlo.after hostOps0 V) (Proc.devRef .tc main_arg0) = V (Proc.devRef .tc main_arg0) := by
  have h := g0_arg0 V
  generalize StableHlo.after hostOps0 V = U at h ⊢
  after_results
  exact h
set_option maxHeartbeats 16000000 in
theorem g1_arg1 : StableHlo.after hostOps0_1 (StableHlo.after hostOps0 V) (Proc.devRef .tc main_arg1) = V (Proc.devRef .tc main_arg1) := by
  have h := g0_arg1 V
  generalize StableHlo.after hostOps0 V = U at h ⊢
  after_results
  exact h
set_option maxHeartbeats 16000000 in
theorem g1_arg2 : StableHlo.after hostOps0_1 (StableHlo.after hostOps0 V) (Proc.devRef .tc main_arg2) = V (Proc.devRef .tc main_arg2) := by
  have h := g0_arg2 V
  generalize StableHlo.after hostOps0 V = U at h ⊢
  after_results
  exact h
set_option maxHeartbeats 16000000 in
theorem g1_arg3 : StableHlo.after hostOps0_1 (StableHlo.after hostOps0 V) (Proc.devRef .tc main_arg3) = V (Proc.devRef .tc main_arg3) := by
  have h := g0_arg3 V
  generalize StableHlo.after hostOps0 V = U at h ⊢
  after_results
  exact h
set_option maxHeartbeats 16000000 in
theorem g1_arg4 : StableHlo.after hostOps0_1 (StableHlo.after hostOps0 V) (Proc.devRef .tc main_arg4) = V (Proc.devRef .tc main_arg4) := by
  have h := g0_arg4 V
  generalize StableHlo.after hostOps0 V = U at h ⊢
  after_results
  exact h
set_option maxHeartbeats 16000000 in
theorem g1_arg5 : StableHlo.after hostOps0_1 (StableHlo.after hostOps0 V) (Proc.devRef .tc main_arg5) = V (Proc.devRef .tc main_arg5) := by
  have h := g0_arg5 V
  generalize StableHlo.after hostOps0 V = U at h ⊢
  after_results
  exact h
set_option maxHeartbeats 16000000 in
theorem g1_arg6 : StableHlo.after hostOps0_1 (StableHlo.after hostOps0 V) (Proc.devRef .tc main_arg6) = V (Proc.devRef .tc main_arg6) := by
  have h := g0_arg6 V
  generalize StableHlo.after hostOps0 V = U at h ⊢
  after_results
  exact h
set_option maxHeartbeats 16000000 in
theorem g1_arg7 : StableHlo.after hostOps0_1 (StableHlo.after hostOps0 V) (Proc.devRef .tc main_arg7) = V (Proc.devRef .tc main_arg7) := by
  have h := g0_arg7 V
  generalize StableHlo.after hostOps0 V = U at h ⊢
  after_results
  exact h

set_option maxHeartbeats 32000000 in
/-- The edge weights: `dinv` gathered at both endpoints, multiplied. -/
theorem g2_v29 : StableHlo.after hostOps0_2 (StableHlo.after hostOps0_1 (StableHlo.after hostOps0 V)) (Proc.devRef .tc main_v29) = Stage.norm (V (Proc.devRef .tc main_arg1)) := by
  have h14 := g1_v14 V
  have h3 := g1_v3 V
  have h6 := g1_v6 V
  generalize StableHlo.after hostOps0_1 (StableHlo.after hostOps0 V) = U at h14 h3 h6 ⊢
  after_results
  rw [h14, h3, h6]
  rfl
set_option maxHeartbeats 16000000 in
theorem g2_v3 : StableHlo.after hostOps0_2 (StableHlo.after hostOps0_1 (StableHlo.after hostOps0 V)) (Proc.devRef .tc main_v3) = Stage.src (V (Proc.devRef .tc main_arg1)) := by
  have h := g1_v3 V
  generalize StableHlo.after hostOps0_1 (StableHlo.after hostOps0 V) = U at h ⊢
  after_results
  exact h
set_option maxHeartbeats 16000000 in
theorem g2_v6 : StableHlo.after hostOps0_2 (StableHlo.after hostOps0_1 (StableHlo.after hostOps0 V)) (Proc.devRef .tc main_v6) = Stage.dst (V (Proc.devRef .tc main_arg1)) := by
  have h := g1_v6 V
  generalize StableHlo.after hostOps0_1 (StableHlo.after hostOps0 V) = U at h ⊢
  after_results
  exact h
set_option maxHeartbeats 16000000 in
theorem g2_arg0 : StableHlo.after hostOps0_2 (StableHlo.after hostOps0_1 (StableHlo.after hostOps0 V)) (Proc.devRef .tc main_arg0) = V (Proc.devRef .tc main_arg0) := by
  have h := g1_arg0 V
  generalize StableHlo.after hostOps0_1 (StableHlo.after hostOps0 V) = U at h ⊢
  after_results
  exact h
set_option maxHeartbeats 16000000 in
theorem g2_arg1 : StableHlo.after hostOps0_2 (StableHlo.after hostOps0_1 (StableHlo.after hostOps0 V)) (Proc.devRef .tc main_arg1) = V (Proc.devRef .tc main_arg1) := by
  have h := g1_arg1 V
  generalize StableHlo.after hostOps0_1 (StableHlo.after hostOps0 V) = U at h ⊢
  after_results
  exact h
set_option maxHeartbeats 16000000 in
theorem g2_arg2 : StableHlo.after hostOps0_2 (StableHlo.after hostOps0_1 (StableHlo.after hostOps0 V)) (Proc.devRef .tc main_arg2) = V (Proc.devRef .tc main_arg2) := by
  have h := g1_arg2 V
  generalize StableHlo.after hostOps0_1 (StableHlo.after hostOps0 V) = U at h ⊢
  after_results
  exact h
set_option maxHeartbeats 16000000 in
theorem g2_arg3 : StableHlo.after hostOps0_2 (StableHlo.after hostOps0_1 (StableHlo.after hostOps0 V)) (Proc.devRef .tc main_arg3) = V (Proc.devRef .tc main_arg3) := by
  have h := g1_arg3 V
  generalize StableHlo.after hostOps0_1 (StableHlo.after hostOps0 V) = U at h ⊢
  after_results
  exact h
set_option maxHeartbeats 16000000 in
theorem g2_arg4 : StableHlo.after hostOps0_2 (StableHlo.after hostOps0_1 (StableHlo.after hostOps0 V)) (Proc.devRef .tc main_arg4) = V (Proc.devRef .tc main_arg4) := by
  have h := g1_arg4 V
  generalize StableHlo.after hostOps0_1 (StableHlo.after hostOps0 V) = U at h ⊢
  after_results
  exact h
set_option maxHeartbeats 16000000 in
theorem g2_arg5 : StableHlo.after hostOps0_2 (StableHlo.after hostOps0_1 (StableHlo.after hostOps0 V)) (Proc.devRef .tc main_arg5) = V (Proc.devRef .tc main_arg5) := by
  have h := g1_arg5 V
  generalize StableHlo.after hostOps0_1 (StableHlo.after hostOps0 V) = U at h ⊢
  after_results
  exact h
set_option maxHeartbeats 16000000 in
theorem g2_arg6 : StableHlo.after hostOps0_2 (StableHlo.after hostOps0_1 (StableHlo.after hostOps0 V)) (Proc.devRef .tc main_arg6) = V (Proc.devRef .tc main_arg6) := by
  have h := g1_arg6 V
  generalize StableHlo.after hostOps0_1 (StableHlo.after hostOps0 V) = U at h ⊢
  after_results
  exact h
set_option maxHeartbeats 16000000 in
theorem g2_arg7 : StableHlo.after hostOps0_2 (StableHlo.after hostOps0_1 (StableHlo.after hostOps0 V)) (Proc.devRef .tc main_arg7) = V (Proc.devRef .tc main_arg7) := by
  have h := g1_arg7 V
  generalize StableHlo.after hostOps0_1 (StableHlo.after hostOps0 V) = U at h ⊢
  after_results
  exact h

end Cert.Gcn.GraphK

end
-- ==== Proof.Carry.lean ====
/-
  What the host stretches and the regions leave alone.

  The endpoints `src` and `dst` and the edge weights `norm` are computed once, by the host operations before the
  first projection, from the edge list alone; every later stretch reads them and none writes them, and no region has
  them among its arrays. So at every later boundary they still hold those functions of the edge list. Likewise each
  argument array is as launched at every boundary where something reads it: no host operation and no region writes one.
-/
import proofs.«170115_j5995774345336_2_alg».proof.Proof.Gen.KernelIdeal.Frame
import proofs.«170115_j5995774345336_2_alg».proof.Proof.Stages
import proofs.«170115_j5995774345336_2_alg».proof.Proof.GraphK
import Idealize.ShloMosaic.Lib.StableHlo.Run

set_option maxRecDepth 16384

noncomputable section

namespace Cert.Gcn.Carry

open Cert.KernelIdeal Cert.KernelIdeal.Gen Idealize.ShloMosaic Idealize.ShloMosaic.TcCoe Idealize.SL.Sem
open Cert.Gcn

variable (m : (ℓ : Loc nD τ sig) → Buf (Elt Ideal) ℓ) (ρ : Dev nD → PrngReg)

theorem W3_v3 (c : Dev nD) : W3 m ρ c (Proc.devRef .tc main_v3) = Stage.src (m ((c.tc : Thread nD τ).loc main_arg1)) :=
  GraphK.g2_v3 (W0 m ρ c)
theorem W4_v3 (c : Dev nD) : W4 m ρ c (Proc.devRef .tc main_v3) = Stage.src (m ((c.tc : Thread nD τ).loc main_arg1)) :=
  (W4_of_ne m ρ c main_v3 (by decide)).trans (W3_v3 m ρ c)
set_option maxHeartbeats 8000000 in
theorem W5_v3 (c : Dev nD) : W5 m ρ c (Proc.devRef .tc main_v3) = Stage.src (m ((c.tc : Thread nD τ).loc main_arg1)) := by
  show StableHlo.after hostOps1 (W4 m ρ c) (Proc.devRef .tc main_v3) = _
  after_results_simp
  exact W4_v3 m ρ c
theorem W6_v3 (c : Dev nD) : W6 m ρ c (Proc.devRef .tc main_v3) = Stage.src (m ((c.tc : Thread nD τ).loc main_arg1)) :=
  (W6_of_ne m ρ c main_v3 (by decide)).trans (W5_v3 m ρ c)
set_option maxHeartbeats 8000000 in
theorem W7_v3 (c : Dev nD) : W7 m ρ c (Proc.devRef .tc main_v3) = Stage.src (m ((c.tc : Thread nD τ).loc main_arg1)) := by
  show StableHlo.after hostOps2 (W6 m ρ c) (Proc.devRef .tc main_v3) = _
  after_results_simp
  exact W6_v3 m ρ c
theorem W8_v3 (c : Dev nD) : W8 m ρ c (Proc.devRef .tc main_v3) = Stage.src (m ((c.tc : Thread nD τ).loc main_arg1)) :=
  (W8_of_ne m ρ c main_v3 (by decide)).trans (W7_v3 m ρ c)

theorem W3_v6 (c : Dev nD) : W3 m ρ c (Proc.devRef .tc main_v6) = Stage.dst (m ((c.tc : Thread nD τ).loc main_arg1)) :=
  GraphK.g2_v6 (W0 m ρ c)
theorem W4_v6 (c : Dev nD) : W4 m ρ c (Proc.devRef .tc main_v6) = Stage.dst (m ((c.tc : Thread nD τ).loc main_arg1)) :=
  (W4_of_ne m ρ c main_v6 (by decide)).trans (W3_v6 m ρ c)
set_option maxHeartbeats 8000000 in
theorem W5_v6 (c : Dev nD) : W5 m ρ c (Proc.devRef .tc main_v6) = Stage.dst (m ((c.tc : Thread nD τ).loc main_arg1)) := by
  show StableHlo.after hostOps1 (W4 m ρ c) (Proc.devRef .tc main_v6) = _
  after_results_simp
  exact W4_v6 m ρ c
theorem W6_v6 (c : Dev nD) : W6 m ρ c (Proc.devRef .tc main_v6) = Stage.dst (m ((c.tc : Thread nD τ).loc main_arg1)) :=
  (W6_of_ne m ρ c main_v6 (by decide)).trans (W5_v6 m ρ c)
set_option maxHeartbeats 8000000 in
theorem W7_v6 (c : Dev nD) : W7 m ρ c (Proc.devRef .tc main_v6) = Stage.dst (m ((c.tc : Thread nD τ).loc main_arg1)) := by
  show StableHlo.after hostOps2 (W6 m ρ c) (Proc.devRef .tc main_v6) = _
  after_results_simp
  exact W6_v6 m ρ c
theorem W8_v6 (c : Dev nD) : W8 m ρ c (Proc.devRef .tc main_v6) = Stage.dst (m ((c.tc : Thread nD τ).loc main_arg1)) :=
  (W8_of_ne m ρ c main_v6 (by decide)).trans (W7_v6 m ρ c)

theorem W3_v29 (c : Dev nD) : W3 m ρ c (Proc.devRef .tc main_v29) = Stage.norm (m ((c.tc : Thread nD τ).loc main_arg1)) :=
  GraphK.g2_v29 (W0 m ρ c)
theorem W4_v29 (c : Dev nD) : W4 m ρ c (Proc.devRef .tc main_v29) = Stage.norm (m ((c.tc : Thread nD τ).loc main_arg1)) :=
  (W4_of_ne m ρ c main_v29 (by decide)).trans (W3_v29 m ρ c)
set_option maxHeartbeats 8000000 in
theorem W5_v29 (c : Dev nD) : W5 m ρ c (Proc.devRef .tc main_v29) = Stage.norm (m ((c.tc : Thread nD τ).loc main_arg1)) := by
  show StableHlo.after hostOps1 (W4 m ρ c) (Proc.devRef .tc main_v29) = _
  after_results_simp
  exact W4_v29 m ρ c
theorem W6_v29 (c : Dev nD) : W6 m ρ c (Proc.devRef .tc main_v29) = Stage.norm (m ((c.tc : Thread nD τ).loc main_arg1)) :=
  (W6_of_ne m ρ c main_v29 (by decide)).trans (W5_v29 m ρ c)
set_option maxHeartbeats 8000000 in
theorem W7_v29 (c : Dev nD) : W7 m ρ c (Proc.devRef .tc main_v29) = Stage.norm (m ((c.tc : Thread nD τ).loc main_arg1)) := by
  show StableHlo.after hostOps2 (W6 m ρ c) (Proc.devRef .tc main_v29) = _
  after_results_simp
  exact W6_v29 m ρ c
theorem W8_v29 (c : Dev nD) : W8 m ρ c (Proc.devRef .tc main_v29) = Stage.norm (m ((c.tc : Thread nD τ).loc main_arg1)) :=
  (W8_of_ne m ρ c main_v29 (by decide)).trans (W7_v29 m ρ c)

theorem W3_arg0 (c : Dev nD) : W3 m ρ c (Proc.devRef .tc main_arg0) = (m ((c.tc : Thread nD τ).loc main_arg0)) :=
  GraphK.g2_arg0 (W0 m ρ c)

theorem W3_arg2 (c : Dev nD) : W3 m ρ c (Proc.devRef .tc main_arg2) = (m ((c.tc : Thread nD τ).loc main_arg2)) :=
  GraphK.g2_arg2 (W0 m ρ c)

theorem W3_arg3 (c : Dev nD) : W3 m ρ c (Proc.devRef .tc main_arg3) = (m ((c.tc : Thread nD τ).loc main_arg3)) :=
  GraphK.g2_arg3 (W0 m ρ c)
theorem W4_arg3 (c : Dev nD) : W4 m ρ c (Proc.devRef .tc main_arg3) = (m ((c.tc : Thread nD τ).loc main_arg3)) :=
  (W4_of_ne m ρ c main_arg3 (by decide)).trans (W3_arg3 m ρ c)

theorem W3_arg4 (c : Dev nD) : W3 m ρ c (Proc.devRef .tc main_arg4) = (m ((c.tc : Thread nD τ).loc main_arg4)) :=
  GraphK.g2_arg4 (W0 m ρ c)
theorem W4_arg4 (c : Dev nD) : W4 m ρ c (Proc.devRef .tc main_arg4) = (m ((c.tc : Thread nD τ).loc main_arg4)) :=
  (W4_of_ne m ρ c main_arg4 (by decide)).trans (W3_arg4 m ρ c)
set_option maxHeartbeats 8000000 in
theorem W5_arg4 (c : Dev nD) : W5 m ρ c (Proc.devRef .tc main_arg4) = (m ((c.tc : Thread nD τ).loc main_arg4)) := by
  show StableHlo.after hostOps1 (W4 m ρ c) (Proc.devRef .tc main_arg4) = _
  after_results_simp
  exact W4_arg4 m ρ c

theorem W3_arg5 (c : Dev nD) : W3 m ρ c (Proc.devRef .tc main_arg5) = (m ((c.tc : Thread nD τ).loc main_arg5)) :=
  GraphK.g2_arg5 (W0 m ρ c)
theorem W4_arg5 (c : Dev nD) : W4 m ρ c (Proc.devRef .tc main_arg5) = (m ((c.tc : Thread nD τ).loc main_arg5)) :=
  (W4_of_ne m ρ c main_arg5 (by decide)).trans (W3_arg5 m ρ c)
set_option maxHeartbeats 8000000 in
theorem W5_arg5 (c : Dev nD) : W5 m ρ c (Proc.devRef .tc main_arg5) = (m ((c.tc : Thread nD τ).loc main_arg5)) := by
  show StableHlo.after hostOps1 (W4 m ρ c) (Proc.devRef .tc main_arg5) = _
  after_results_simp
  exact W4_arg5 m ρ c
theorem W6_arg5 (c : Dev nD) : W6 m ρ c (Proc.devRef .tc main_arg5) = (m ((c.tc : Thread nD τ).loc main_arg5)) :=
  (W6_of_ne m ρ c main_arg5 (by decide)).trans (W5_arg5 m ρ c)

theorem W3_arg6 (c : Dev nD) : W3 m ρ c (Proc.devRef .tc main_arg6) = (m ((c.tc : Thread nD τ).loc main_arg6)) :=
  GraphK.g2_arg6 (W0 m ρ c)
theorem W4_arg6 (c : Dev nD) : W4 m ρ c (Proc.devRef .tc main_arg6) = (m ((c.tc : Thread nD τ).loc main_arg6)) :=
  (W4_of_ne m ρ c main_arg6 (by decide)).trans (W3_arg6 m ρ c)
set_option maxHeartbeats 8000000 in
theorem W5_arg6 (c : Dev nD) : W5 m ρ c (Proc.devRef .tc main_arg6) = (m ((c.tc : Thread nD τ).loc main_arg6)) := by
  show StableHlo.after hostOps1 (W4 m ρ c) (Proc.devRef .tc main_arg6) = _
  after_results_simp
  exact W4_arg6 m ρ c
theorem W6_arg6 (c : Dev nD) : W6 m ρ c (Proc.devRef .tc main_arg6) = (m ((c.tc : Thread nD τ).loc main_arg6)) :=
  (W6_of_ne m ρ c main_arg6 (by decide)).trans (W5_arg6 m ρ c)
set_option maxHeartbeats 8000000 in
theorem W7_arg6 (c : Dev nD) : W7 m ρ c (Proc.devRef .tc main_arg6) = (m ((c.tc : Thread nD τ).loc main_arg6)) := by
  show StableHlo.after hostOps2 (W6 m ρ c) (Proc.devRef .tc main_arg6) = _
  after_results_simp
  exact W6_arg6 m ρ c

theorem W3_arg7 (c : Dev nD) : W3 m ρ c (Proc.devRef .tc main_arg7) = (m ((c.tc : Thread nD τ).loc main_arg7)) :=
  GraphK.g2_arg7 (W0 m ρ c)
theorem W4_arg7 (c : Dev nD) : W4 m ρ c (Proc.devRef .tc main_arg7) = (m ((c.tc : Thread nD τ).loc main_arg7)) :=
  (W4_of_ne m ρ c main_arg7 (by decide)).trans (W3_arg7 m ρ c)
set_option maxHeartbeats 8000000 in
theorem W5_arg7 (c : Dev nD) : W5 m ρ c (Proc.devRef .tc main_arg7) = (m ((c.tc : Thread nD τ).loc main_arg7)) := by
  show StableHlo.after hostOps1 (W4 m ρ c) (Proc.devRef .tc main_arg7) = _
  after_results_simp
  exact W4_arg7 m ρ c
theorem W6_arg7 (c : Dev nD) : W6 m ρ c (Proc.devRef .tc main_arg7) = (m ((c.tc : Thread nD τ).loc main_arg7)) :=
  (W6_of_ne m ρ c main_arg7 (by decide)).trans (W5_arg7 m ρ c)
set_option maxHeartbeats 8000000 in
theorem W7_arg7 (c : Dev nD) : W7 m ρ c (Proc.devRef .tc main_arg7) = (m ((c.tc : Thread nD τ).loc main_arg7)) := by
  show StableHlo.after hostOps2 (W6 m ρ c) (Proc.devRef .tc main_arg7) = _
  after_results_simp
  exact W6_arg7 m ρ c
theorem W8_arg7 (c : Dev nD) : W8 m ρ c (Proc.devRef .tc main_arg7) = (m ((c.tc : Thread nD τ).loc main_arg7)) :=
  (W8_of_ne m ρ c main_arg7 (by decide)).trans (W7_arg7 m ρ c)

end Cert.Gcn.Carry

end
-- ==== Proof.Block.lean ====
/-
  One grid point of each dense projection, at the exact values (floats read as extended reals, every
  change of float format the identity).

  Each of the three kernels loads a block of 10000 rows of its left operand `x` and the whole weight
  matrix `w`, and stores the block's product with `w`: entry (p, q) of the stored block is
  `∑ k, x[p, k] · w[k, q]` over the 128 contracted positions. The second and third kernels first add
  the bias row `b` to every row of `x` and clamp at zero, so their entry (p, q) is
  `∑ k, max (x[p, k] + b[0, k]) 0 · w[k, q]`. The roundings to bf16 before and after the matrix
  unit disappear at the exact values, and the zero accumulator contributes nothing.
-/
import proofs.«170115_j5995774345336_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Gcn.Block

open Cert.KernelIdeal Cert.KernelIdeal.Gen Idealize.ShloMosaic Idealize.ShloMosaic.ValueIdx

/-! ### The block product [10000, 128] × [128, 128]: its operand indices, and the product at an index -/

theorem lhs_row128 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_col128 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_row128 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_col128 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Into a zero accumulator the matrix unit's product at row `p`, column `q` is the plain sum over the 128 contracted
    positions of the left operand's row `p` times the right operand's column `q`. -/
theorem blockdot128 (l : FVec Ideal S10000x128 .bf16) (r : FVec Ideal S128x128 .bf16) (p : Fin 10000) (q : Fin 128) :
    matmul dot_S10000x128_S128x128_S10000x128_1_0_0_1_n_n none l r (constant (F := Ideal) S10000x128 .f32 0x00000000#32) (ix2 p q)
      = ∑ k : Fin 128, l (ix2 p k) * r (ix2 k q) := by
  refine (Ideal.matmul_constant_zero_apply dot_S10000x128_S128x128_S10000x128_1_0_0_1_n_n none l r (ix2 p q)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs_row128 _ _
    | ⟨1, _⟩ => exact (lhs_col128 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs_row128 _ _).trans hk
    | ⟨1, _⟩ => exact rhs_col128 _ _)
  rw [el, er]

/-! ### The block product [10000, 128] × [128, 64]: its operand indices, and the product at an index -/

theorem lhs_row64 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_col64 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs_row64 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs_col64 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- Into a zero accumulator the matrix unit's product at row `p`, column `q` is the plain sum over the 128 contracted
    positions of the left operand's row `p` times the right operand's column `q`. -/
theorem blockdot64 (l : FVec Ideal S10000x128 .bf16) (r : FVec Ideal S128x64 .bf16) (p : Fin 10000) (q : Fin 64) :
    matmul dot_S10000x128_S128x64_S10000x64_1_0_0_1_n_n none l r (constant (F := Ideal) S10000x64 .f32 0x00000000#32) (ix2 p q)
      = ∑ k : Fin 128, l (ix2 p k) * r (ix2 k q) := by
  refine (Ideal.matmul_constant_zero_apply dot_S10000x128_S128x64_S10000x64_1_0_0_1_n_n none l r (ix2 p q)).trans ?_
  rw [← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k := funext fun a => Fin.ext (by
    match a with
    | ⟨0, _⟩ => exact lhs_row64 _ _
    | ⟨1, _⟩ => exact (lhs_col64 _ _).trans hk)
  have er : dot_S10000x128_S128x64_S10000x64_1_0_0_1_n_n.rhsIdx (ix2 p q) ((contrEquiv1 dot_S10000x128_S128x64_S10000x64_1_0_0_1_n_n 128 rfl rfl).symm k) = ix2 k q := funext fun a => Fin.ext (by
    match a with
    | ⟨0, _⟩ => exact (rhs_row64 _ _).trans hk
    | ⟨1, _⟩ => exact rhs_col64 _ _)
  rw [el, er]

/-! ### The three payloads at an index -/

/-- The plain projection's stored block: row `p` of the loaded block times column `q` of the weights. -/
theorem plain_apply (x : Vec Ideal S10000x128 .f32) (w : Vec Ideal S128x128 .f32) (p : Fin 10000) (q : Fin 128) :
    k0_pay1 (F := Ideal) x w (ix2 p q) = ∑ k : Fin 128, x (ix2 p k) * w (ix2 k q) :=
  blockdot128 _ _ p q

/-- The bias row added to every row of the block, clamped at zero: entry (p, k). -/
theorem biasrelu_apply (x : Vec Ideal S10000x128 .f32) (b : Vec Ideal S1x128 .f32) (p : Fin 10000) (k : Fin 128) :
    maximumf (addf (shapeCast S10000x128 x shapeCasts_S10000x128_S10000x128)
        (broadcastTo S10000x128 (shapeCast S1x128 b shapeCasts_S1x128_S1x128) broadcasts_S1x128_S10000x128))
      (broadcast S10000x128 (Scalar.ofBits (F := Ideal) .f32 0x00000000#32)) (ix2 p k)
      = max (x (ix2 p k) + b (ix2 (0 : Fin 1) k)) 0 := by
  show max ((shapeCast S10000x128 x shapeCasts_S10000x128_S10000x128) (ix2 p k)
      + broadcastTo S10000x128 (shapeCast S1x128 b shapeCasts_S1x128_S1x128) broadcasts_S1x128_S10000x128 (ix2 p k))
    (Ideal.ofBits .f32 0x00000000#32) = _
  rw [shapeCast_self, shapeCast_self, broadcastTo_1b_ab_apply, Ideal.ofBits_zero_f32]

/-- The second projection's stored block: the clamped, biased row `p` times column `q` of the weights. -/
theorem biasrelu128_apply (x : Vec Ideal S10000x128 .f32) (b : Vec Ideal S1x128 .f32) (w : Vec Ideal S128x128 .f32)
    (p : Fin 10000) (q : Fin 128) :
    k1_pay1 (F := Ideal) x b w (ix2 p q) = ∑ k : Fin 128, max (x (ix2 p k) + b (ix2 (0 : Fin 1) k)) 0 * w (ix2 k q) := by
  refine (blockdot128 _ _ p q).trans ?_
  refine Finset.sum_congr rfl fun k _ => ?_
  exact congrArg (· * w (ix2 k q)) (biasrelu_apply x b p k)

/-- The third projection's stored block: the same with 64 output columns. -/
theorem biasrelu64_apply (x : Vec Ideal S10000x128 .f32) (b : Vec Ideal S1x128 .f32) (w : Vec Ideal S128x64 .f32)
    (p : Fin 10000) (q : Fin 64) :
    k2_pay1 (F := Ideal) x b w (ix2 p q) = ∑ k : Fin 128, max (x (ix2 p k) + b (ix2 (0 : Fin 1) k)) 0 * w (ix2 k q) := by
  refine (blockdot64 _ _ p q).trans ?_
  refine Finset.sum_congr rfl fun k _ => ?_
  exact congrArg (· * w (ix2 k q)) (biasrelu_apply x b p k)

end Cert.Gcn.Block

end
-- ==== Proof.Region0.lean ====
/-
  The first dense projection as one whole-array function: after region 0 its result array is `x · W1`.

  The grid has ten points; point `t` stages rows 10000·t … 10000·t + 9999 of the left operand and the
  whole weight matrix, and writes back the same ten thousand rows of the result. Row `p` of the block a point
  stores is row 10000·t + p of `dense x w` of the arrays the region finds on entry, because the
  left operand's block and the result's block sit at the same rows and the other operands' one block is the whole
  array. The ten blocks tile the 100000 rows, so after the region the result array is that function everywhere.
-/
import proofs.«170115_j5995774345336_2_alg».proof.Proof.Gen.KernelIdeal.Frame
import proofs.«170115_j5995774345336_2_alg».proof.Proof.Block
import proofs.«170115_j5995774345336_2_alg».proof.Proof.Spec
import Idealize.ShloMosaic.Lib.Pipeline.Value

set_option maxRecDepth 16384

noncomputable section

namespace Cert.Gcn.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- What the region's result array holds on exit, as one function of the arrays it finds on entry. -/
abbrev result (c : Dev nD) : S100000x128.Idx → Elt Ideal .bf16 :=
  dense (V c main_arg0 : Mat 100000 128) (V c main_arg2 : Mat 128 128)

/-- One point, over plain variables: if the loaded left block's row is row `i 0` of the array `A` and the loaded
    weights are `W`, the stored entry at `y` is the whole-array function at `i` (the columns agree: `y 1 = i 1`). -/
theorem point (x0 : Vec Ideal S10000x128 .f32) (xw : Vec Ideal S128x128 .f32)
    (A : Mat 100000 128) (W : Mat 128 128) (y : S10000x128.Idx) (i : S100000x128.Idx)
    (h0 : ∀ k : Fin 128, x0 (ix2 (y 0) k) = A (ix2 (i 0) k))
    (hw : ∀ k : Fin 128, xw (ix2 k (y 1)) = W (ix2 k (i 1))) :
    k0_pay1 (F := Ideal) x0 xw y = dense A W i := by
  obtain ⟨p, q, rfl⟩ : ∃ (p : Fin 10000) (q : Fin 128), y = ix2 p q := ⟨y 0, y 1, eq_ix2 y⟩
  obtain ⟨r, s, rfl⟩ : ∃ (r : Fin 100000) (s : Fin 128), i = ix2 r s := ⟨i 0, i 1, eq_ix2 i⟩
  refine (Block.plain_apply x0 xw p q).trans ?_
  refine Finset.sum_congr rfl fun k _ => ?_
  rw [h0 k, hw k]

/-- The printed index maps, decided over the ten points: the left operand's block and the result's block are at the
    same row block and column block 0; every other operand's block is block (0, 0); the row block is below ten. -/
theorem index_facts : ∀ t : Fin cfg0.N,
    win0_0.index t (0 : Fin 2) = win0_2.index t (0 : Fin 2)
    ∧ win0_0.index t (1 : Fin 2) = 0
    ∧ win0_2.index t (1 : Fin 2) = 0
    ∧ win0_1.index t (0 : Fin 2) = 0 ∧ win0_1.index t (1 : Fin 2) = 0
    ∧ win0_2.index t (0 : Fin 2) ≤ 9 :=
  (by decide +kernel : ∀ t : Fin grid0.N, _)

/-- Every row block is some point's. -/
theorem index_onto : ∀ q0 : Fin 10, ∃ t : Fin cfg0.N, win0_2.index t = ![q0.val, 0] :=
  (by decide +kernel : ∀ q0 : Fin 10, ∃ t : Fin grid0.N, win0_2.index t = ![q0.val, 0])

/-- WHAT POINT `t` WRITES BACK is block `t` of the whole-array function. -/
theorem flushed_eq (c : Dev nD) (t : Fin cfg0.N) :
    (dat0 V c).flushed 2 t = ((cfg0.win 2).blk t).view.read (Elt Ideal) (result V c) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x128) zero_offsets]
  obtain ⟨e0, e1, e2, f00, f01, e9⟩ := index_facts t
  funext j
  show k0_pay1 (F := Ideal) (iblk0 V c 0 t) (iblk0 V c 1 t) j = result V c (((cfg0.win 2).blk t).view.emb j)
  refine point _ _ _ _ j _ (fun k => ?_) (fun k => ?_)
  · show V c main_arg0 (((cfg0.win 0).blk t).view.emb (ix2 (j 0) k)) = V c main_arg0 (ix2 ((((cfg0.win 2).blk t).view.emb j) 0) k)
    refine congrArg (V c main_arg0) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  · show V c main_arg2 (((cfg0.win 1).blk t).view.emb (ix2 k (j 1))) = V c main_arg2 (ix2 k ((((cfg0.win 2).blk t).view.emb j) 1))
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the result array is in point `t`'s block iff each coordinate is in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v30).slice (win0_2.rect t)).set ↔ _
  rw [View.set_slice_whole, Rect.mem_set_unit]
  exact Iff.rfl

/-- Every index of the result array lies in the block of the point its row belongs to, row / 10000. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := index_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- THE RESULT ARRAY after the region: the whole-array function of the arrays found on entry. -/
theorem final (c : Dev nD) : (dat0 V c).arrAt 2 cfg0.N = result V c :=
  (dat0 V c).arrAt_eq_of_cover 2 (result V c) (fun t _ => flushed_eq V c t) covered

end Cert.Gcn.Region0

end
-- ==== Proof.Region1.lean ====
/-
  The second dense projection as one whole-array function: after region 1 its result array is `relu(agg + b) · W2`.

  The grid has ten points; point `t` stages rows 10000·t … 10000·t + 9999 of the left operand, the whole bias row and the
  whole weight matrix, and writes back the same ten thousand rows of the result. Row `p` of the block a point
  stores is row 10000·t + p of `dense (biasRelu agg b) w` of the arrays the region finds on entry, because the
  left operand's block and the result's block sit at the same rows and the other operands' one block is the whole
  array. The ten blocks tile the 100000 rows, so after the region the result array is that function everywhere.
-/
import proofs.«170115_j5995774345336_2_alg».proof.Proof.Gen.KernelIdeal.Frame
import proofs.«170115_j5995774345336_2_alg».proof.Proof.Block
import proofs.«170115_j5995774345336_2_alg».proof.Proof.Spec
import Idealize.ShloMosaic.Lib.Pipeline.Value

set_option maxRecDepth 16384

noncomputable section

namespace Cert.Gcn.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- What the region's result array holds on exit, as one function of the arrays it finds on entry. -/
abbrev result (c : Dev nD) : S100000x128.Idx → Elt Ideal .bf16 :=
  dense (biasRelu (V c main_v44 : Mat 100000 128) (V c main_v45 : Mat 1 128)) (V c main_arg4 : Mat 128 128)

/-- One point, over plain variables: if the loaded left block's row is row `i 0` of the array `A`, the loaded bias row is `B` and the loaded
    weights are `W`, the stored entry at `y` is the whole-array function at `i` (the columns agree: `y 1 = i 1`). -/
theorem point (x0 : Vec Ideal S10000x128 .f32) (x1 : Vec Ideal S1x128 .f32) (xw : Vec Ideal S128x128 .f32)
    (A : Mat 100000 128) (B : Mat 1 128) (W : Mat 128 128) (y : S10000x128.Idx) (i : S100000x128.Idx)
    (h0 : ∀ k : Fin 128, x0 (ix2 (y 0) k) = A (ix2 (i 0) k))
    (h1 : ∀ k : Fin 128, x1 (ix2 (0 : Fin 1) k) = B (ix2 (0 : Fin 1) k))
    (hw : ∀ k : Fin 128, xw (ix2 k (y 1)) = W (ix2 k (i 1))) :
    k1_pay1 (F := Ideal) x0 x1 xw y = dense (biasRelu A B) W i := by
  obtain ⟨p, q, rfl⟩ : ∃ (p : Fin 10000) (q : Fin 128), y = ix2 p q := ⟨y 0, y 1, eq_ix2 y⟩
  obtain ⟨r, s, rfl⟩ : ∃ (r : Fin 100000) (s : Fin 128), i = ix2 r s := ⟨i 0, i 1, eq_ix2 i⟩
  refine (Block.biasrelu128_apply x0 x1 xw p q).trans ?_
  refine Finset.sum_congr rfl fun k _ => ?_
  rw [h0 k, h1 k, hw k]
  rfl

/-- The printed index maps, decided over the ten points: the left operand's block and the result's block are at the
    same row block and column block 0; every other operand's block is block (0, 0); the row block is below ten. -/
theorem index_facts : ∀ t : Fin cfg1.N,
    win1_0.index t (0 : Fin 2) = win1_3.index t (0 : Fin 2)
    ∧ win1_0.index t (1 : Fin 2) = 0
    ∧ win1_3.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 9 :=
  (by decide +kernel : ∀ t : Fin grid1.N, _)

/-- Every row block is some point's. -/
theorem index_onto : ∀ q0 : Fin 10, ∃ t : Fin cfg1.N, win1_3.index t = ![q0.val, 0] :=
  (by decide +kernel : ∀ q0 : Fin 10, ∃ t : Fin grid1.N, win1_3.index t = ![q0.val, 0])

/-- WHAT POINT `t` WRITES BACK is block `t` of the whole-array function. -/
theorem flushed_eq (c : Dev nD) (t : Fin cfg1.N) :
    (dat1 V c).flushed 3 t = ((cfg1.win 3).blk t).view.read (Elt Ideal) (result V c) := by
  show (cfg1.win 3).cut (grid1.coords t) ((dat1 V c).after 3 t) = _
  rw [after1_3]
  unfold out1_3
  rw [View.canon_unit_zero zero_offsets]
  simp only [View.ld_unit_zero (S := S10000x128) zero_offsets, View.ld_unit_zero (S := S1x128) zero_offsets, View.ld_unit_zero (S := S128x128) zero_offsets]
  obtain ⟨e0, e1, e2, f00, f01, f10, f11, e9⟩ := index_facts t
  funext j
  show k1_pay1 (F := Ideal) (iblk1 V c 0 t) (iblk1 V c 1 t) (iblk1 V c 2 t) j = result V c (((cfg1.win 3).blk t).view.emb j)
  refine point _ _ _ _ _ _ j _ (fun k => ?_) (fun k => ?_) (fun k => ?_)
  · show V c main_v44 (((cfg1.win 0).blk t).view.emb (ix2 (j 0) k)) = V c main_v44 (ix2 ((((cfg1.win 3).blk t).view.emb j) 0) k)
    refine congrArg (V c main_v44) (funext fun a => Fin.ext ?_)
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 128 + 1 * k.val = k.val; omega
  · show V c main_v45 (((cfg1.win 1).blk t).view.emb (ix2 (0 : Fin 1) k)) = V c main_v45 (ix2 (0 : Fin 1) k)
    refine congrArg (V c main_v45) (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega
  · show V c main_arg4 (((cfg1.win 2).blk t).view.emb (ix2 k (j 1))) = V c main_arg4 (ix2 k ((((cfg1.win 3).blk t).view.emb j) 1))
    refine congrArg (V c main_arg4) (funext fun a => Fin.ext ?_)
    match a with
    | ⟨0, _⟩ => show win1_2.index t (0 : Fin 2) * 128 + 1 * k.val = k.val; omega
    | ⟨1, _⟩ => show win1_2.index t (1 : Fin 2) * 128 + 1 * (j 1).val = win1_3.index t (1 : Fin 2) * 128 + 1 * (j 1).val; omega

/-- An index of the result array is in point `t`'s block iff each coordinate is in the block's range on its axis. -/
theorem mem_blk (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v46).slice (win1_3.rect t)).set ↔ _
  rw [View.set_slice_whole, Rect.mem_set_unit]
  exact Iff.rfl

/-- Every index of the result array lies in the block of the point its row belongs to, row / 10000. -/
theorem covered (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := index_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 128 ≤ (i 1).val ∧ (i 1).val < win1_3.index t (1 : Fin 2) * 128 + 128; omega

/-- THE RESULT ARRAY after the region: the whole-array function of the arrays found on entry. -/
theorem final (c : Dev nD) : (dat1 V c).arrAt 3 cfg1.N = result V c :=
  (dat1 V c).arrAt_eq_of_cover 3 (result V c) (fun t _ => flushed_eq V c t) covered

end Cert.Gcn.Region1

end
-- ==== Proof.Region2.lean ====
/-
  The third dense projection as one whole-array function: after region 2 its result array is `relu(agg + b) · W3`.

  The grid has ten points; point `t` stages rows 10000·t … 10000·t + 9999 of the left operand, the whole bias row and the
  whole weight matrix, and writes back the same ten thousand rows of the result. Row `p` of the block a point
  stores is row 10000·t + p of `dense (biasRelu agg b) w` of the arrays the region finds on entry, because the
  left operand's block and the result's block sit at the same rows and the other operands' one block is the whole
  array. The ten blocks tile the 100000 rows, so after the region the result array is that function everywhere.
-/
import proofs.«170115_j5995774345336_2_alg».proof.Proof.Gen.KernelIdeal.Frame
import proofs.«170115_j5995774345336_2_alg».proof.Proof.Block
import proofs.«170115_j5995774345336_2_alg».proof.Proof.Spec
import Idealize.ShloMosaic.Lib.Pipeline.Value

set_option maxRecDepth 16384

noncomputable section

namespace Cert.Gcn.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- What the region's result array holds on exit, as one function of the arrays it finds on entry. -/
abbrev result (c : Dev nD) : S100000x64.Idx → Elt Ideal .bf16 :=
  dense (biasRelu (V c main_v60 : Mat 100000 128) (V c main_v61 : Mat 1 128)) (V c main_arg6 : Mat 128 64)

/-- One point, over plain variables: if the loaded left block's row is row `i 0` of the array `A`, the loaded bias row is `B` and the loaded
    weights are `W`, the stored entry at `y` is the whole-array function at `i` (the columns agree: `y 1 = i 1`). -/
theorem point (x0 : Vec Ideal S10000x128 .f32) (x1 : Vec Ideal S1x128 .f32) (xw : Vec Ideal S128x64 .f32)
    (A : Mat 100000 128) (B : Mat 1 128) (W : Mat 128 64) (y : S10000x64.Idx) (i : S100000x64.Idx)
    (h0 : ∀ k : Fin 128, x0 (ix2 (y 0) k) = A (ix2 (i 0) k))
    (h1 : ∀ k : Fin 128, x1 (ix2 (0 : Fin 1) k) = B (ix2 (0 : Fin 1) k))
    (hw : ∀ k : Fin 128, xw (ix2 k (y 1)) = W (ix2 k (i 1))) :
    k2_pay1 (F := Ideal) x0 x1 xw y = dense (biasRelu A B) W i := by
  obtain ⟨p, q, rfl⟩ : ∃ (p : Fin 10000) (q : Fin 64), y = ix2 p q := ⟨y 0, y 1, eq_ix2 y⟩
  obtain ⟨r, s, rfl⟩ : ∃ (r : Fin 100000) (s : Fin 64), i = ix2 r s := ⟨i 0, i 1, eq_ix2 i⟩
  refine (Block.biasrelu64_apply x0 x1 xw p q).trans ?_
  refine Finset.sum_congr rfl fun k _ => ?_
  rw [h0 k, h1 k, hw k]
  rfl

/-- The printed index maps, decided over the ten points: the left operand's block and the result's block are at the
    same row block and column block 0; every other operand's block is block (0, 0); the row block is below ten. -/
theorem index_facts : ∀ t : Fin cfg2.N,
    win2_0.index t (0 : Fin 2) = win2_3.index t (0 : Fin 2)
    ∧ win2_0.index t (1 : Fin 2) = 0
    ∧ win2_3.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) ≤ 9 :=
  (by decide +kernel : ∀ t : Fin grid2.N, _)

/-- Every row block is some point's. -/
theorem index_onto : ∀ q0 : Fin 10, ∃ t : Fin cfg2.N, win2_3.index t = ![q0.val, 0] :=
  (by decide +kernel : ∀ q0 : Fin 10, ∃ t : Fin grid2.N, win2_3.index t = ![q0.val, 0])

/-- WHAT POINT `t` WRITES BACK is block `t` of the whole-array function. -/
theorem flushed_eq (c : Dev nD) (t : Fin cfg2.N) :
    (dat2 V c).flushed 3 t = ((cfg2.win 3).blk t).view.read (Elt Ideal) (result V c) := by
  show (cfg2.win 3).cut (grid2.coords t) ((dat2 V c).after 3 t) = _
  rw [after2_3]
  unfold out2_3
  rw [View.canon_unit_zero zero_offsets]
  simp only [View.ld_unit_zero (S := S10000x128) zero_offsets, View.ld_unit_zero (S := S1x128) zero_offsets, View.ld_unit_zero (S := S128x64) zero_offsets]
  obtain ⟨e0, e1, e2, f00, f01, f10, f11, e9⟩ := index_facts t
  funext j
  show k2_pay1 (F := Ideal) (iblk2 V c 0 t) (iblk2 V c 1 t) (iblk2 V c 2 t) j = result V c (((cfg2.win 3).blk t).view.emb j)
  refine point _ _ _ _ _ _ j _ (fun k => ?_) (fun k => ?_) (fun k => ?_)
  · show V c main_v60 (((cfg2.win 0).blk t).view.emb (ix2 (j 0) k)) = V c main_v60 (ix2 ((((cfg2.win 3).blk t).view.emb j) 0) k)
    refine congrArg (V c main_v60) (funext fun a => Fin.ext ?_)
    match a with
    | ⟨0, _⟩ => show win2_0.index t (0 : Fin 2) * 10000 + 1 * (j 0).val = win2_3.index t (0 : Fin 2) * 10000 + 1 * (j 0).val; omega
    | ⟨1, _⟩ => show win2_0.index t (1 : Fin 2) * 128 + 1 * k.val = k.val; omega
  · show V c main_v61 (((cfg2.win 1).blk t).view.emb (ix2 (0 : Fin 1) k)) = V c main_v61 (ix2 (0 : Fin 1) k)
    refine congrArg (V c main_v61) (funext fun a => Fin.ext ?_)
    match a with
    | ⟨0, _⟩ => show win2_1.index t (0 : Fin 2) * 1 + 1 * 0 = 0; omega
    | ⟨1, _⟩ => show win2_1.index t (1 : Fin 2) * 128 + 1 * k.val = k.val; omega
  · show V c main_arg6 (((cfg2.win 2).blk t).view.emb (ix2 k (j 1))) = V c main_arg6 (ix2 k ((((cfg2.win 3).blk t).view.emb j) 1))
    refine congrArg (V c main_arg6) (funext fun a => Fin.ext ?_)
    match a with
    | ⟨0, _⟩ => show win2_2.index t (0 : Fin 2) * 128 + 1 * k.val = k.val; omega
    | ⟨1, _⟩ => show win2_2.index t (1 : Fin 2) * 64 + 1 * (j 1).val = win2_3.index t (1 : Fin 2) * 64 + 1 * (j 1).val; omega

/-- An index of the result array is in point `t`'s block iff each coordinate is in the block's range on its axis. -/
theorem mem_blk (t : Fin cfg2.N) (i : S100000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v62).slice (win2_3.rect t)).set ↔ _
  rw [View.set_slice_whole, Rect.mem_set_unit]
  exact Iff.rfl

/-- Every index of the result array lies in the block of the point its row belongs to, row / 10000. -/
theorem covered (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ := index_onto ⟨(i 0).val / 10000, by omega⟩
  have q0 : win2_3.index t (0 : Fin 2) = (i 0).val / 10000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 64 ≤ (i 1).val ∧ (i 1).val < win2_3.index t (1 : Fin 2) * 64 + 64; omega

/-- THE RESULT ARRAY after the region: the whole-array function of the arrays found on entry. -/
theorem final (c : Dev nD) : (dat2 V c).arrAt 3 cfg2.N = result V c :=
  (dat2 V c).arrAt_eq_of_cover 3 (result V c) (fun t _ => flushed_eq V c t) covered

end Cert.Gcn.Region2

end
-- ==== Proof.Chain.lean ====
/-
  The kernel's result as a function of its arguments: the fold through @main, boundary by boundary.

  Region 0 leaves `h1 = x · W1`. The stretch after it leaves the first neighbourhood sum `a1 = agg h1` and the bias
  `b1` laid out as one row. Region 1 leaves `h2 = relu(a1 + b1) · W2`; the next stretch `a2 = agg h2` and `b2` as one
  row; region 2 `h3 = relu(a2 + b2) · W3`; the last stretch the result `agg h3 + b3`. Each region's array is the
  whole-array function of what the region finds (the region modules), each stretch's buffers are its operations'
  composed term of what it finds, and what it finds is what the boundary before it holds. The projections' results are
  stored in bf16 and widened again by the host: at the exact values neither changes a number.
-/
import proofs.«170115_j5995774345336_2_alg».proof.Proof.Carry
import proofs.«170115_j5995774345336_2_alg».proof.Proof.Region0
import proofs.«170115_j5995774345336_2_alg».proof.Proof.Region1
import proofs.«170115_j5995774345336_2_alg».proof.Proof.Region2

set_option maxRecDepth 16384

noncomputable section

namespace Cert.Gcn.Chain

open Cert.KernelIdeal Cert.KernelIdeal.Gen Idealize.ShloMosaic Idealize.ShloMosaic.TcCoe Idealize.SL.Sem Idealize.ShloMosaic.ValueIdx
open Cert.Gcn Cert.Gcn.Carry

variable (m : (ℓ : Loc nD τ sig) → Buf (Elt Ideal) ℓ) (ρ : Dev nD → PrngReg)

/-- The first bias as a one-row matrix, as the host lays it out for the second projection. -/
abbrev bias1 (c : Dev nD) : Mat 1 128 := shapeCast S1x128 (m ((c.tc : Thread nD τ).loc main_arg3)) shapeCasts_S128_S1x128
/-- The second bias as a one-row matrix. -/
abbrev bias2 (c : Dev nD) : Mat 1 128 := shapeCast S1x128 (m ((c.tc : Thread nD τ).loc main_arg5)) shapeCasts_S128_S1x128

/-- The first projection: `x · W1`. -/
abbrev h1 (c : Dev nD) : Mat 100000 128 := dense ((m ((c.tc : Thread nD τ).loc main_arg0)) : Mat 100000 128) ((m ((c.tc : Thread nD τ).loc main_arg2)) : Mat 128 128)
/-- The first neighbourhood sum. -/
abbrev a1 (c : Dev nD) : Mat 100000 128 := Stage.agg128 (h1 m c) (m ((c.tc : Thread nD τ).loc main_arg1))
/-- The second projection: `relu(a1 + b1) · W2`. -/
abbrev h2 (c : Dev nD) : Mat 100000 128 := dense (biasRelu (a1 m c) (bias1 m c)) ((m ((c.tc : Thread nD τ).loc main_arg4)) : Mat 128 128)
/-- The second neighbourhood sum. -/
abbrev a2 (c : Dev nD) : Mat 100000 128 := Stage.agg128 (h2 m c) (m ((c.tc : Thread nD τ).loc main_arg1))
/-- The third projection: `relu(a2 + b2) · W3`. -/
abbrev h3 (c : Dev nD) : Mat 100000 64 := dense (biasRelu (a2 m c) (bias2 m c)) ((m ((c.tc : Thread nD τ).loc main_arg6)) : Mat 128 64)

/-- After region 0 its result array holds the first projection. -/
theorem W4_h1 (c : Dev nD) : W4 m ρ c (Proc.devRef .tc main_v30) = h1 m c :=
  (W4_arr m ρ c 2).trans ((Region0.final (V3 m ρ) c).trans (by
    show dense (W3 m ρ c (Proc.devRef .tc main_arg0) : Mat 100000 128) (W3 m ρ c (Proc.devRef .tc main_arg2) : Mat 128 128) = _
    rw [W3_arg0 m ρ c, W3_arg2 m ρ c]))

set_option maxHeartbeats 8000000 in
/-- The stretch after region 0 leaves the first neighbourhood sum. -/
theorem W5_a1 (c : Dev nD) : W5 m ρ c (Proc.devRef .tc main_v44) = a1 m c := by
  show StableHlo.after hostOps1 (W4 m ρ c) (Proc.devRef .tc main_v44) = _
  after_results_simp
  rw [W4_h1 m ρ c, W4_v3 m ρ c, W4_v6 m ρ c, W4_v29 m ρ c]
  rfl

set_option maxHeartbeats 8000000 in
/-- … and the first bias laid out as one row. -/
theorem W5_bias1 (c : Dev nD) : W5 m ρ c (Proc.devRef .tc main_v45) = bias1 m c := by
  show StableHlo.after hostOps1 (W4 m ρ c) (Proc.devRef .tc main_v45) = _
  after_results_simp
  rw [W4_arg3 m ρ c]
  rfl

/-- After region 1 its result array holds the second projection. -/
theorem W6_h2 (c : Dev nD) : W6 m ρ c (Proc.devRef .tc main_v46) = h2 m c :=
  (W6_arr m ρ c 3).trans ((Region1.final (V5 m ρ) c).trans (by
    show dense (biasRelu (W5 m ρ c (Proc.devRef .tc main_v44) : Mat 100000 128) (W5 m ρ c (Proc.devRef .tc main_v45) : Mat 1 128)) (W5 m ρ c (Proc.devRef .tc main_arg4) : Mat 128 128) = _
    rw [W5_a1 m ρ c, W5_bias1 m ρ c, W5_arg4 m ρ c]))

set_option maxHeartbeats 8000000 in
/-- The stretch after region 1 leaves the second neighbourhood sum. -/
theorem W7_a2 (c : Dev nD) : W7 m ρ c (Proc.devRef .tc main_v60) = a2 m c := by
  show StableHlo.after hostOps2 (W6 m ρ c) (Proc.devRef .tc main_v60) = _
  after_results_simp
  rw [W6_h2 m ρ c, W6_v3 m ρ c, W6_v6 m ρ c, W6_v29 m ρ c]
  rfl

set_option maxHeartbeats 8000000 in
/-- … and the second bias laid out as one row. -/
theorem W7_bias2 (c : Dev nD) : W7 m ρ c (Proc.devRef .tc main_v61) = bias2 m c := by
  show StableHlo.after hostOps2 (W6 m ρ c) (Proc.devRef .tc main_v61) = _
  after_results_simp
  rw [W6_arg5 m ρ c]
  rfl

/-- After region 2 its result array holds the third projection. -/
theorem W8_h3 (c : Dev nD) : W8 m ρ c (Proc.devRef .tc main_v62) = h3 m c :=
  (W8_arr m ρ c 3).trans ((Region2.final (V7 m ρ) c).trans (by
    show dense (biasRelu (W7 m ρ c (Proc.devRef .tc main_v60) : Mat 100000 128) (W7 m ρ c (Proc.devRef .tc main_v61) : Mat 1 128)) (W7 m ρ c (Proc.devRef .tc main_arg6) : Mat 128 64) = _
    rw [W7_a2 m ρ c, W7_bias2 m ρ c, W7_arg6 m ρ c]))

set_option maxHeartbeats 8000000 in
/-- THE RESULT: the last stretch leaves the third neighbourhood sum plus the output bias — the kernel-shaped output of
    the argument arrays. -/
theorem result (c : Dev nD) :
    W9 m ρ c (Proc.devRef .tc main_v79)
      = Stage.kernelOut (m ((c.tc : Thread nD τ).loc main_arg0)) (m ((c.tc : Thread nD τ).loc main_arg1)) (m ((c.tc : Thread nD τ).loc main_arg2)) (bias1 m c) (m ((c.tc : Thread nD τ).loc main_arg4)) (bias2 m c) (m ((c.tc : Thread nD τ).loc main_arg6)) (m ((c.tc : Thread nD τ).loc main_arg7)) := by
  show StableHlo.after hostOps3 (W8 m ρ c) (Proc.devRef .tc main_v79) = _
  after_results_simp
  rw [W8_h3 m ρ c, W8_v3 m ρ c, W8_v6 m ρ c, W8_v29 m ρ c, W8_arg7 m ρ c]
  rfl

end Cert.Gcn.Chain

end
-- ==== Proof.RefOps.lean ====
/-
  The idealized reference's @main as a line of 106 host operations (the two outlined functions — the masked select
  of the degree normalisation, and the clamp at zero — standing in their calls' places), cut into six consecutive
  slices: three for the graph side (endpoints and degrees; the masked select; the edge weights) and one per layer.
  Every weakly fair execution terminates with each buffer at the operations' fold of the launch contents, and no
  operation writes an argument array.
-/
import proofs.«170115_j5995774345336_2_alg».proof.ReferenceIdeal
import proofs.«170115_j5995774345336_2_alg».proof.Proof.Gen.ReferenceIdeal
import Idealize.ShloMosaic.Lib.StableHlo.Run
import Idealize.ShloMosaic.Lib.Pipeline.Frame

noncomputable section

namespace Cert.Gcn.RefOps

open Cert.ReferenceIdeal Cert.ReferenceIdeal.Gen Idealize.ShloMosaic Idealize.ShloMosaic.TcCoe Idealize.SL.Sem Idealize.ShloMosaic.StableHlo

variable {F : FTy → Type} [FloatOps F]

/-- @main's 106 operations, in order (a called function's operations stand in its call's place). -/
abbrev ops : List (HloOp τ sig (Elt F)) :=
  [ nullary main_v0 (iotaInDim S100000 32 0),
    unary main_arg1 main_v1 ((extractStridedSlice S1x640000 ![0, 0] · slices_S2x640000_S1x640000_0_0) : (⟨S2x640000, .i32⟩ : BufTy).Contents (Elt F) → (⟨S1x640000, .i32⟩ : BufTy).Contents (Elt F)),
    reshape main_v1 main_v2 rfl shapeCasts_S1x640000_S640000,
    binary main_v2 main_v0 main_v3 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    unary main_arg1 main_v4 ((extractStridedSlice S1x640000 ![1, 0] · slices_S2x640000_S1x640000_1_0) : (⟨S2x640000, .i32⟩ : BufTy).Contents (Elt F) → (⟨S1x640000, .i32⟩ : BufTy).Contents (Elt F)),
    reshape main_v4 main_v5 rfl shapeCasts_S1x640000_S640000,
    binary main_v5 main_v0 main_v6 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    nullary main_cst (constant S_ .f32 0x3F800000#32),
    unary main_cst main_v7 (broadcastInDim S740000 ![] bcast_S_S740000 : (⟨S_, .f32⟩ : BufTy).Contents (Elt F) → (⟨S740000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S740000x1 ![0] bcast_S740000_S740000x1_0 : (⟨S740000, .i32⟩ : BufTy).Contents (Elt F) → (⟨S740000x1, .i32⟩ : BufTy).Contents (Elt F)),
    ternary main_v8 main_v9 main_v7 main_v10 ((fun x i u => Host.scatterAdd scatter_S100000_S740000x1_S740000_n_0_0_1 x i u) : (⟨S100000, .f32⟩ : BufTy).Contents (Elt F) → (⟨S740000x1, .i32⟩ : BufTy).Contents (Elt F) → (⟨S740000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S740000 ![] bcast_S_S740000 : (⟨S_, .i32⟩ : BufTy).Contents (Elt F) → (⟨S740000, .i32⟩ : BufTy).Contents (Elt F)),
    binary main_v3 main_v15 main_v16 (cmpi .slt : (⟨S740000, .i32⟩ : BufTy).Contents (Elt F) → (⟨S740000, .i32⟩ : BufTy).Contents (Elt F) → (⟨S740000, .i1⟩ : BufTy).Contents (Elt F)),
    nullary main_c_3 (constantI S_ 32 100000#32),
    unary main_c_3 main_v17 (broadcastInDim S740000 ![] bcast_S_S740000 : (⟨S_, .i32⟩ : BufTy).Contents (Elt F) → (⟨S740000, .i32⟩ : BufTy).Contents (Elt F)),
    binary main_v3 main_v17 main_v18 (addi : (⟨S740000, .i32⟩ : BufTy).Contents (Elt F) → (⟨S740000, .i32⟩ : BufTy).Contents (Elt F) → (⟨S740000, .i32⟩ : BufTy).Contents (Elt F)),
    ternary main_v16 main_v18 main_v3 main_v19 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v19 main_v20 (broadcastInDim S740000x1 ![0] bcast_S740000_S740000x1_0 : (⟨S740000, .i32⟩ : BufTy).Contents (Elt F) → (⟨S740000x1, .i32⟩ : BufTy).Contents (Elt F)),
    binary main_v14 main_v20 main_v21 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    nullary main_c_4 (constantI S_ 32 0#32),
    unary main_c_4 main_v22 (broadcastInDim S740000 ![] bcast_S_S740000 : (⟨S_, .i32⟩ : BufTy).Contents (Elt F) → (⟨S740000, .i32⟩ : BufTy).Contents (Elt F)),
    binary main_v6 main_v22 main_v23 (cmpi .slt : (⟨S740000, .i32⟩ : BufTy).Contents (Elt F) → (⟨S740000, .i32⟩ : BufTy).Contents (Elt F) → (⟨S740000, .i1⟩ : BufTy).Contents (Elt F)),
    nullary main_c_5 (constantI S_ 32 100000#32),
    unary main_c_5 main_v24 (broadcastInDim S740000 ![] bcast_S_S740000 : (⟨S_, .i32⟩ : BufTy).Contents (Elt F) → (⟨S740000, .i32⟩ : BufTy).Contents (Elt F)),
    binary main_v6 main_v24 main_v25 (addi : (⟨S740000, .i32⟩ : BufTy).Contents (Elt F) → (⟨S740000, .i32⟩ : BufTy).Contents (Elt F) → (⟨S740000, .i32⟩ : BufTy).Contents (Elt F)),
    ternary main_v23 main_v25 main_v6 main_v26 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v26 main_v27 (broadcastInDim S740000x1 ![0] bcast_S740000_S740000x1_0 : (⟨S740000, .i32⟩ : BufTy).Contents (Elt F) → (⟨S740000x1, .i32⟩ : BufTy).Contents (Elt F)),
    binary main_v14 main_v27 main_v28 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    binary main_v21 main_v28 main_v29 (mulf : (⟨S740000, .f32⟩ : BufTy).Contents (Elt F) → (⟨S740000, .f32⟩ : BufTy).Contents (Elt F) → (⟨S740000, .f32⟩ : BufTy).Contents (Elt F)),
    binary main_arg0 main_arg2 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_6 (constantI S_ 32 0#32),
    unary main_c_6 main_v31 (broadcastInDim S740000 ![] bcast_S_S740000 : (⟨S_, .i32⟩ : BufTy).Contents (Elt F) → (⟨S740000, .i32⟩ : BufTy).Contents (Elt F)),
    binary main_v3 main_v31 main_v32 (cmpi .slt : (⟨S740000, .i32⟩ : BufTy).Contents (Elt F) → (⟨S740000, .i32⟩ : BufTy).Contents (Elt F) → (⟨S740000, .i1⟩ : BufTy).Contents (Elt F)),
    nullary main_c_7 (constantI S_ 32 100000#32),
    unary main_c_7 main_v33 (broadcastInDim S740000 ![] bcast_S_S740000 : (⟨S_, .i32⟩ : BufTy).Contents (Elt F) → (⟨S740000, .i32⟩ : BufTy).Contents (Elt F)),
    binary main_v3 main_v33 main_v34 (addi : (⟨S740000, .i32⟩ : BufTy).Contents (Elt F) → (⟨S740000, .i32⟩ : BufTy).Contents (Elt F) → (⟨S740000, .i32⟩ : BufTy).Contents (Elt F)),
    ternary main_v32 main_v34 main_v3 main_v35 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v35 main_v36 (broadcastInDim S740000x1 ![0] bcast_S740000_S740000x1_0 : (⟨S740000, .i32⟩ : BufTy).Contents (Elt F) → (⟨S740000x1, .i32⟩ : BufTy).Contents (Elt F)),
    binary main_v30 main_v36 main_v37 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    unary main_v29 main_v38 (broadcastInDim S740000x1 ![0] bcast_S740000_S740000x1_0 : (⟨S740000, .f32⟩ : BufTy).Contents (Elt F) → (⟨S740000x1, .f32⟩ : BufTy).Contents (Elt F)),
    unary main_v38 main_v39 (broadcastInDim S740000x128 ![0, 1] bcast_S740000x1_S740000x128_0_1 : (⟨S740000x1, .f32⟩ : BufTy).Contents (Elt F) → (⟨S740000x128, .f32⟩ : BufTy).Contents (Elt F)),
    binary main_v37 main_v39 main_v40 (mulf : (⟨S740000x128, .f32⟩ : BufTy).Contents (Elt F) → (⟨S740000x128, .f32⟩ : BufTy).Contents (Elt F) → (⟨S740000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S740000x1 ![0] bcast_S740000_S740000x1_0 : (⟨S740000, .i32⟩ : BufTy).Contents (Elt F) → (⟨S740000x1, .i32⟩ : BufTy).Contents (Elt F)),
    ternary main_v41 main_v42 main_v40 main_v43 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf,
    binary main_v47 main_arg4 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_9 (constantI S_ 32 0#32),
    unary main_c_9 main_v49 (broadcastInDim S740000 ![] bcast_S_S740000 : (⟨S_, .i32⟩ : BufTy).Contents (Elt F) → (⟨S740000, .i32⟩ : BufTy).Contents (Elt F)),
    binary main_v3 main_v49 main_v50 (cmpi .slt : (⟨S740000, .i32⟩ : BufTy).Contents (Elt F) → (⟨S740000, .i32⟩ : BufTy).Contents (Elt F) → (⟨S740000, .i1⟩ : BufTy).Contents (Elt F)),
    nullary main_c_10 (constantI S_ 32 100000#32),
    unary main_c_10 main_v51 (broadcastInDim S740000 ![] bcast_S_S740000 : (⟨S_, .i32⟩ : BufTy).Contents (Elt F) → (⟨S740000, .i32⟩ : BufTy).Contents (Elt F)),
    binary main_v3 main_v51 main_v52 (addi : (⟨S740000, .i32⟩ : BufTy).Contents (Elt F) → (⟨S740000, .i32⟩ : BufTy).Contents (Elt F) → (⟨S740000, .i32⟩ : BufTy).Contents (Elt F)),
    ternary main_v50 main_v52 main_v3 main_v53 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v53 main_v54 (broadcastInDim S740000x1 ![0] bcast_S740000_S740000x1_0 : (⟨S740000, .i32⟩ : BufTy).Contents (Elt F) → (⟨S740000x1, .i32⟩ : BufTy).Contents (Elt F)),
    binary main_v48 main_v54 main_v55 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    unary main_v29 main_v56 (broadcastInDim S740000x1 ![0] bcast_S740000_S740000x1_0 : (⟨S740000, .f32⟩ : BufTy).Contents (Elt F) → (⟨S740000x1, .f32⟩ : BufTy).Contents (Elt F)),
    unary main_v56 main_v57 (broadcastInDim S740000x128 ![0, 1] bcast_S740000x1_S740000x128_0_1 : (⟨S740000x1, .f32⟩ : BufTy).Contents (Elt F) → (⟨S740000x128, .f32⟩ : BufTy).Contents (Elt F)),
    binary main_v55 main_v57 main_v58 (mulf : (⟨S740000x128, .f32⟩ : BufTy).Contents (Elt F) → (⟨S740000x128, .f32⟩ : BufTy).Contents (Elt F) → (⟨S740000x128, .f32⟩ : BufTy).Contents (Elt F)),
    nullary main_cst_11 (constant S_ .f32 0x00000000#32),
    unary main_cst_11 main_v59 (broadcastInDim S100000x128 ![] bcast_S_S100000x128 : (⟨S_, .f32⟩ : BufTy).Contents (Elt F) → (⟨S100000x128, .f32⟩ : BufTy).Contents (Elt F)),
    unary main_v6 main_v60 (broadcastInDim S740000x1 ![0] bcast_S740000_S740000x1_0 : (⟨S740000, .i32⟩ : BufTy).Contents (Elt F) → (⟨S740000x1, .i32⟩ : BufTy).Contents (Elt F)),
    ternary main_v59 main_v60 main_v58 main_v61 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)),
    unary main_arg5 main_v62 (broadcastInDim S1x128 ![1] bcast_S128_S1x128_1 : (⟨S128, .f32⟩ : BufTy).Contents (Elt F) → (⟨S1x128, .f32⟩ : BufTy).Contents (Elt F)),
    unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v61 main_v63 main_v64 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v64) (TRef.of (T := ⟨S100000x128, .f32⟩) main_call2_v0) (TRef.of (T := ⟨S100000x128, .f32⟩) main_v65) maximumf,
    binary main_v65 main_arg6 main_v66 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_12 (constantI S_ 32 0#32),
    unary main_c_12 main_v67 (broadcastInDim S740000 ![] bcast_S_S740000 : (⟨S_, .i32⟩ : BufTy).Contents (Elt F) → (⟨S740000, .i32⟩ : BufTy).Contents (Elt F)),
    binary main_v3 main_v67 main_v68 (cmpi .slt : (⟨S740000, .i32⟩ : BufTy).Contents (Elt F) → (⟨S740000, .i32⟩ : BufTy).Contents (Elt F) → (⟨S740000, .i1⟩ : BufTy).Contents (Elt F)),
    nullary main_c_13 (constantI S_ 32 100000#32),
    unary main_c_13 main_v69 (broadcastInDim S740000 ![] bcast_S_S740000 : (⟨S_, .i32⟩ : BufTy).Contents (Elt F) → (⟨S740000, .i32⟩ : BufTy).Contents (Elt F)),
    binary main_v3 main_v69 main_v70 (addi : (⟨S740000, .i32⟩ : BufTy).Contents (Elt F) → (⟨S740000, .i32⟩ : BufTy).Contents (Elt F) → (⟨S740000, .i32⟩ : BufTy).Contents (Elt F)),
    ternary main_v68 main_v70 main_v3 main_v71 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v71 main_v72 (broadcastInDim S740000x1 ![0] bcast_S740000_S740000x1_0 : (⟨S740000, .i32⟩ : BufTy).Contents (Elt F) → (⟨S740000x1, .i32⟩ : BufTy).Contents (Elt F)),
    binary main_v66 main_v72 main_v73 ((fun x i => Host.gather gather_S100000x64_S740000x1_S740000x64_1_0_n_n_0_1_164 x i) : (⟨S100000x64, .f32⟩ : BufTy).Contents (Elt F) → (⟨S740000x1, .i32⟩ : BufTy).Contents (Elt F) → (⟨S740000x64, .f32⟩ : BufTy).Contents (Elt F)),
    unary main_v29 main_v74 (broadcastInDim S740000x1 ![0] bcast_S740000_S740000x1_0 : (⟨S740000, .f32⟩ : BufTy).Contents (Elt F) → (⟨S740000x1, .f32⟩ : BufTy).Contents (Elt F)),
    unary main_v74 main_v75 (broadcastInDim S740000x64 ![0, 1] bcast_S740000x1_S740000x64_0_1 : (⟨S740000x1, .f32⟩ : BufTy).Contents (Elt F) → (⟨S740000x64, .f32⟩ : BufTy).Contents (Elt F)),
    binary main_v73 main_v75 main_v76 (mulf : (⟨S740000x64, .f32⟩ : BufTy).Contents (Elt F) → (⟨S740000x64, .f32⟩ : BufTy).Contents (Elt F) → (⟨S740000x64, .f32⟩ : BufTy).Contents (Elt F)),
    nullary main_cst_14 (constant S_ .f32 0x00000000#32),
    unary main_cst_14 main_v77 (broadcastInDim S100000x64 ![] bcast_S_S100000x64 : (⟨S_, .f32⟩ : BufTy).Contents (Elt F) → (⟨S100000x64, .f32⟩ : BufTy).Contents (Elt F)),
    unary main_v6 main_v78 (broadcastInDim S740000x1 ![0] bcast_S740000_S740000x1_0 : (⟨S740000, .i32⟩ : BufTy).Contents (Elt F) → (⟨S740000x1, .i32⟩ : BufTy).Contents (Elt F)),
    ternary main_v77 main_v78 main_v76 main_v79 ((fun x i u => Host.scatterAdd scatter_S100000x64_S740000x1_S740000x64_1_0_0_1 x i u) : (⟨S100000x64, .f32⟩ : BufTy).Contents (Elt F) → (⟨S740000x1, .i32⟩ : BufTy).Contents (Elt F) → (⟨S740000x64, .f32⟩ : BufTy).Contents (Elt F) → (⟨S100000x64, .f32⟩ : BufTy).Contents (Elt F)),
    unary main_arg7 main_v80 (broadcastInDim S1x64 ![1] bcast_S64_S1x64_1 : (⟨S64, .f32⟩ : BufTy).Contents (Elt F) → (⟨S1x64, .f32⟩ : BufTy).Contents (Elt F)),
    unary main_v80 main_v81 (broadcastInDim S100000x64 ![0, 1] bcast_S1x64_S100000x64_0_1 : (⟨S1x64, .f32⟩ : BufTy).Contents (Elt F) → (⟨S100000x64, .f32⟩ : BufTy).Contents (Elt F)),
    binary main_v79 main_v81 main_v82 (addf : (⟨S100000x64, .f32⟩ : BufTy).Contents (Elt F) → (⟨S100000x64, .f32⟩ : BufTy).Contents (Elt F) → (⟨S100000x64, .f32⟩ : BufTy).Contents (Elt F)) ]

/-- Operations 1 … 18. -/
abbrev opsG0 : List (HloOp τ sig (Elt F)) :=
  [ nullary main_v0 (iotaInDim S100000 32 0),
    unary main_arg1 main_v1 ((extractStridedSlice S1x640000 ![0, 0] · slices_S2x640000_S1x640000_0_0) : (⟨S2x640000, .i32⟩ : BufTy).Contents (Elt F) → (⟨S1x640000, .i32⟩ : BufTy).Contents (Elt F)),
    reshape main_v1 main_v2 rfl shapeCasts_S1x640000_S640000,
    binary main_v2 main_v0 main_v3 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    unary main_arg1 main_v4 ((extractStridedSlice S1x640000 ![1, 0] · slices_S2x640000_S1x640000_1_0) : (⟨S2x640000, .i32⟩ : BufTy).Contents (Elt F) → (⟨S1x640000, .i32⟩ : BufTy).Contents (Elt F)),
    reshape main_v4 main_v5 rfl shapeCasts_S1x640000_S640000,
    binary main_v5 main_v0 main_v6 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    nullary main_cst (constant S_ .f32 0x3F800000#32),
    unary main_cst main_v7 (broadcastInDim S740000 ![] bcast_S_S740000 : (⟨S_, .f32⟩ : BufTy).Contents (Elt F) → (⟨S740000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S740000x1 ![0] bcast_S740000_S740000x1_0 : (⟨S740000, .i32⟩ : BufTy).Contents (Elt F) → (⟨S740000x1, .i32⟩ : BufTy).Contents (Elt F)),
    ternary main_v8 main_v9 main_v7 main_v10 ((fun x i u => Host.scatterAdd scatter_S100000_S740000x1_S740000_n_0_0_1 x i u) : (⟨S100000, .f32⟩ : BufTy).Contents (Elt F) → (⟨S740000x1, .i32⟩ : BufTy).Contents (Elt F) → (⟨S740000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

/-- Operations 19 … 21. -/
abbrev opsG1 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

/-- Operations 22 … 40. -/
abbrev opsG2 : List (HloOp τ sig (Elt F)) :=
  [ nullary main_c (constantI S_ 32 0#32),
    unary main_c main_v15 (broadcastInDim S740000 ![] bcast_S_S740000 : (⟨S_, .i32⟩ : BufTy).Contents (Elt F) → (⟨S740000, .i32⟩ : BufTy).Contents (Elt F)),
    binary main_v3 main_v15 main_v16 (cmpi .slt : (⟨S740000, .i32⟩ : BufTy).Contents (Elt F) → (⟨S740000, .i32⟩ : BufTy).Contents (Elt F) → (⟨S740000, .i1⟩ : BufTy).Contents (Elt F)),
    nullary main_c_3 (constantI S_ 32 100000#32),
    unary main_c_3 main_v17 (broadcastInDim S740000 ![] bcast_S_S740000 : (⟨S_, .i32⟩ : BufTy).Contents (Elt F) → (⟨S740000, .i32⟩ : BufTy).Contents (Elt F)),
    binary main_v3 main_v17 main_v18 (addi : (⟨S740000, .i32⟩ : BufTy).Contents (Elt F) → (⟨S740000, .i32⟩ : BufTy).Contents (Elt F) → (⟨S740000, .i32⟩ : BufTy).Contents (Elt F)),
    ternary main_v16 main_v18 main_v3 main_v19 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v19 main_v20 (broadcastInDim S740000x1 ![0] bcast_S740000_S740000x1_0 : (⟨S740000, .i32⟩ : BufTy).Contents (Elt F) → (⟨S740000x1, .i32⟩ : BufTy).Contents (Elt F)),
    binary main_v14 main_v20 main_v21 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    nullary main_c_4 (constantI S_ 32 0#32),
    unary main_c_4 main_v22 (broadcastInDim S740000 ![] bcast_S_S740000 : (⟨S_, .i32⟩ : BufTy).Contents (Elt F) → (⟨S740000, .i32⟩ : BufTy).Contents (Elt F)),
    binary main_v6 main_v22 main_v23 (cmpi .slt : (⟨S740000, .i32⟩ : BufTy).Contents (Elt F) → (⟨S740000, .i32⟩ : BufTy).Contents (Elt F) → (⟨S740000, .i1⟩ : BufTy).Contents (Elt F)),
    nullary main_c_5 (constantI S_ 32 100000#32),
    unary main_c_5 main_v24 (broadcastInDim S740000 ![] bcast_S_S740000 : (⟨S_, .i32⟩ : BufTy).Contents (Elt F) → (⟨S740000, .i32⟩ : BufTy).Contents (Elt F)),
    binary main_v6 main_v24 main_v25 (addi : (⟨S740000, .i32⟩ : BufTy).Contents (Elt F) → (⟨S740000, .i32⟩ : BufTy).Contents (Elt F) → (⟨S740000, .i32⟩ : BufTy).Contents (Elt F)),
    ternary main_v23 main_v25 main_v6 main_v26 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v26 main_v27 (broadcastInDim S740000x1 ![0] bcast_S740000_S740000x1_0 : (⟨S740000, .i32⟩ : BufTy).Contents (Elt F) → (⟨S740000x1, .i32⟩ : BufTy).Contents (Elt F)),
    binary main_v14 main_v27 main_v28 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    binary main_v21 main_v28 main_v29 (mulf : (⟨S740000, .f32⟩ : BufTy).Contents (Elt F) → (⟨S740000, .f32⟩ : BufTy).Contents (Elt F) → (⟨S740000, .f32⟩ : BufTy).Contents (Elt F)) ]

/-- Operations 41 … 63. -/
abbrev opsL1 : List (HloOp τ sig (Elt F)) :=
  [ binary main_arg0 main_arg2 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_6 (constantI S_ 32 0#32),
    unary main_c_6 main_v31 (broadcastInDim S740000 ![] bcast_S_S740000 : (⟨S_, .i32⟩ : BufTy).Contents (Elt F) → (⟨S740000, .i32⟩ : BufTy).Contents (Elt F)),
    binary main_v3 main_v31 main_v32 (cmpi .slt : (⟨S740000, .i32⟩ : BufTy).Contents (Elt F) → (⟨S740000, .i32⟩ : BufTy).Contents (Elt F) → (⟨S740000, .i1⟩ : BufTy).Contents (Elt F)),
    nullary main_c_7 (constantI S_ 32 100000#32),
    unary main_c_7 main_v33 (broadcastInDim S740000 ![] bcast_S_S740000 : (⟨S_, .i32⟩ : BufTy).Contents (Elt F) → (⟨S740000, .i32⟩ : BufTy).Contents (Elt F)),
    binary main_v3 main_v33 main_v34 (addi : (⟨S740000, .i32⟩ : BufTy).Contents (Elt F) → (⟨S740000, .i32⟩ : BufTy).Contents (Elt F) → (⟨S740000, .i32⟩ : BufTy).Contents (Elt F)),
    ternary main_v32 main_v34 main_v3 main_v35 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v35 main_v36 (broadcastInDim S740000x1 ![0] bcast_S740000_S740000x1_0 : (⟨S740000, .i32⟩ : BufTy).Contents (Elt F) → (⟨S740000x1, .i32⟩ : BufTy).Contents (Elt F)),
    binary main_v30 main_v36 main_v37 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    unary main_v29 main_v38 (broadcastInDim S740000x1 ![0] bcast_S740000_S740000x1_0 : (⟨S740000, .f32⟩ : BufTy).Contents (Elt F) → (⟨S740000x1, .f32⟩ : BufTy).Contents (Elt F)),
    unary main_v38 main_v39 (broadcastInDim S740000x128 ![0, 1] bcast_S740000x1_S740000x128_0_1 : (⟨S740000x1, .f32⟩ : BufTy).Contents (Elt F) → (⟨S740000x128, .f32⟩ : BufTy).Contents (Elt F)),
    binary main_v37 main_v39 main_v40 (mulf : (⟨S740000x128, .f32⟩ : BufTy).Contents (Elt F) → (⟨S740000x128, .f32⟩ : BufTy).Contents (Elt F) → (⟨S740000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S740000x1 ![0] bcast_S740000_S740000x1_0 : (⟨S740000, .i32⟩ : BufTy).Contents (Elt F) → (⟨S740000x1, .i32⟩ : BufTy).Contents (Elt F)),
    ternary main_v41 main_v42 main_v40 main_v43 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf ]

/-- Operations 64 … 86. -/
abbrev opsL2 : List (HloOp τ sig (Elt F)) :=
  [ binary main_v47 main_arg4 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_9 (constantI S_ 32 0#32),
    unary main_c_9 main_v49 (broadcastInDim S740000 ![] bcast_S_S740000 : (⟨S_, .i32⟩ : BufTy).Contents (Elt F) → (⟨S740000, .i32⟩ : BufTy).Contents (Elt F)),
    binary main_v3 main_v49 main_v50 (cmpi .slt : (⟨S740000, .i32⟩ : BufTy).Contents (Elt F) → (⟨S740000, .i32⟩ : BufTy).Contents (Elt F) → (⟨S740000, .i1⟩ : BufTy).Contents (Elt F)),
    nullary main_c_10 (constantI S_ 32 100000#32),
    unary main_c_10 main_v51 (broadcastInDim S740000 ![] bcast_S_S740000 : (⟨S_, .i32⟩ : BufTy).Contents (Elt F) → (⟨S740000, .i32⟩ : BufTy).Contents (Elt F)),
    binary main_v3 main_v51 main_v52 (addi : (⟨S740000, .i32⟩ : BufTy).Contents (Elt F) → (⟨S740000, .i32⟩ : BufTy).Contents (Elt F) → (⟨S740000, .i32⟩ : BufTy).Contents (Elt F)),
    ternary main_v50 main_v52 main_v3 main_v53 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v53 main_v54 (broadcastInDim S740000x1 ![0] bcast_S740000_S740000x1_0 : (⟨S740000, .i32⟩ : BufTy).Contents (Elt F) → (⟨S740000x1, .i32⟩ : BufTy).Contents (Elt F)),
    binary main_v48 main_v54 main_v55 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    unary main_v29 main_v56 (broadcastInDim S740000x1 ![0] bcast_S740000_S740000x1_0 : (⟨S740000, .f32⟩ : BufTy).Contents (Elt F) → (⟨S740000x1, .f32⟩ : BufTy).Contents (Elt F)),
    unary main_v56 main_v57 (broadcastInDim S740000x128 ![0, 1] bcast_S740000x1_S740000x128_0_1 : (⟨S740000x1, .f32⟩ : BufTy).Contents (Elt F) → (⟨S740000x128, .f32⟩ : BufTy).Contents (Elt F)),
    binary main_v55 main_v57 main_v58 (mulf : (⟨S740000x128, .f32⟩ : BufTy).Contents (Elt F) → (⟨S740000x128, .f32⟩ : BufTy).Contents (Elt F) → (⟨S740000x128, .f32⟩ : BufTy).Contents (Elt F)),
    nullary main_cst_11 (constant S_ .f32 0x00000000#32),
    unary main_cst_11 main_v59 (broadcastInDim S100000x128 ![] bcast_S_S100000x128 : (⟨S_, .f32⟩ : BufTy).Contents (Elt F) → (⟨S100000x128, .f32⟩ : BufTy).Contents (Elt F)),
    unary main_v6 main_v60 (broadcastInDim S740000x1 ![0] bcast_S740000_S740000x1_0 : (⟨S740000, .i32⟩ : BufTy).Contents (Elt F) → (⟨S740000x1, .i32⟩ : BufTy).Contents (Elt F)),
    ternary main_v59 main_v60 main_v58 main_v61 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)),
    unary main_arg5 main_v62 (broadcastInDim S1x128 ![1] bcast_S128_S1x128_1 : (⟨S128, .f32⟩ : BufTy).Contents (Elt F) → (⟨S1x128, .f32⟩ : BufTy).Contents (Elt F)),
    unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v61 main_v63 main_v64 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v64) (TRef.of (T := ⟨S100000x128, .f32⟩) main_call2_v0) (TRef.of (T := ⟨S100000x128, .f32⟩) main_v65) maximumf ]

/-- Operations 87 … 106. -/
abbrev opsL3 : List (HloOp τ sig (Elt F)) :=
  [ binary main_v65 main_arg6 main_v66 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_12 (constantI S_ 32 0#32),
    unary main_c_12 main_v67 (broadcastInDim S740000 ![] bcast_S_S740000 : (⟨S_, .i32⟩ : BufTy).Contents (Elt F) → (⟨S740000, .i32⟩ : BufTy).Contents (Elt F)),
    binary main_v3 main_v67 main_v68 (cmpi .slt : (⟨S740000, .i32⟩ : BufTy).Contents (Elt F) → (⟨S740000, .i32⟩ : BufTy).Contents (Elt F) → (⟨S740000, .i1⟩ : BufTy).Contents (Elt F)),
    nullary main_c_13 (constantI S_ 32 100000#32),
    unary main_c_13 main_v69 (broadcastInDim S740000 ![] bcast_S_S740000 : (⟨S_, .i32⟩ : BufTy).Contents (Elt F) → (⟨S740000, .i32⟩ : BufTy).Contents (Elt F)),
    binary main_v3 main_v69 main_v70 (addi : (⟨S740000, .i32⟩ : BufTy).Contents (Elt F) → (⟨S740000, .i32⟩ : BufTy).Contents (Elt F) → (⟨S740000, .i32⟩ : BufTy).Contents (Elt F)),
    ternary main_v68 main_v70 main_v3 main_v71 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v71 main_v72 (broadcastInDim S740000x1 ![0] bcast_S740000_S740000x1_0 : (⟨S740000, .i32⟩ : BufTy).Contents (Elt F) → (⟨S740000x1, .i32⟩ : BufTy).Contents (Elt F)),
    binary main_v66 main_v72 main_v73 ((fun x i => Host.gather gather_S100000x64_S740000x1_S740000x64_1_0_n_n_0_1_164 x i) : (⟨S100000x64, .f32⟩ : BufTy).Contents (Elt F) → (⟨S740000x1, .i32⟩ : BufTy).Contents (Elt F) → (⟨S740000x64, .f32⟩ : BufTy).Contents (Elt F)),
    unary main_v29 main_v74 (broadcastInDim S740000x1 ![0] bcast_S740000_S740000x1_0 : (⟨S740000, .f32⟩ : BufTy).Contents (Elt F) → (⟨S740000x1, .f32⟩ : BufTy).Contents (Elt F)),
    unary main_v74 main_v75 (broadcastInDim S740000x64 ![0, 1] bcast_S740000x1_S740000x64_0_1 : (⟨S740000x1, .f32⟩ : BufTy).Contents (Elt F) → (⟨S740000x64, .f32⟩ : BufTy).Contents (Elt F)),
    binary main_v73 main_v75 main_v76 (mulf : (⟨S740000x64, .f32⟩ : BufTy).Contents (Elt F) → (⟨S740000x64, .f32⟩ : BufTy).Contents (Elt F) → (⟨S740000x64, .f32⟩ : BufTy).Contents (Elt F)),
    nullary main_cst_14 (constant S_ .f32 0x00000000#32),
    unary main_cst_14 main_v77 (broadcastInDim S100000x64 ![] bcast_S_S100000x64 : (⟨S_, .f32⟩ : BufTy).Contents (Elt F) → (⟨S100000x64, .f32⟩ : BufTy).Contents (Elt F)),
    unary main_v6 main_v78 (broadcastInDim S740000x1 ![0] bcast_S740000_S740000x1_0 : (⟨S740000, .i32⟩ : BufTy).Contents (Elt F) → (⟨S740000x1, .i32⟩ : BufTy).Contents (Elt F)),
    ternary main_v77 main_v78 main_v76 main_v79 ((fun x i u => Host.scatterAdd scatter_S100000x64_S740000x1_S740000x64_1_0_0_1 x i u) : (⟨S100000x64, .f32⟩ : BufTy).Contents (Elt F) → (⟨S740000x1, .i32⟩ : BufTy).Contents (Elt F) → (⟨S740000x64, .f32⟩ : BufTy).Contents (Elt F) → (⟨S100000x64, .f32⟩ : BufTy).Contents (Elt F)),
    unary main_arg7 main_v80 (broadcastInDim S1x64 ![1] bcast_S64_S1x64_1 : (⟨S64, .f32⟩ : BufTy).Contents (Elt F) → (⟨S1x64, .f32⟩ : BufTy).Contents (Elt F)),
    unary main_v80 main_v81 (broadcastInDim S100000x64 ![0, 1] bcast_S1x64_S100000x64_0_1 : (⟨S1x64, .f32⟩ : BufTy).Contents (Elt F) → (⟨S100000x64, .f32⟩ : BufTy).Contents (Elt F)),
    binary main_v79 main_v81 main_v82 (addf : (⟨S100000x64, .f32⟩ : BufTy).Contents (Elt F) → (⟨S100000x64, .f32⟩ : BufTy).Contents (Elt F) → (⟨S100000x64, .f32⟩ : BufTy).Contents (Elt F)) ]

/-- The line is its six slices in a row. -/
theorem ops_split : (ops : List (HloOp τ sig (Elt F))) = opsG0 ++ opsG1 ++ opsG2 ++ opsL1 ++ opsL2 ++ opsL3 := rfl

/-- The fold through the line is the fold through the slices, one after the other. -/
theorem after_ops (V : Valuation τ sig (Elt F)) :
    after (ops (F := F)) V = after opsL3 (after opsL2 (after opsL1 (after opsG2 (after opsG1 (after opsG0 V))))) := by
  rw [ops_split, after_append, after_append, after_append, after_append, after_append]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

/-- Every weakly fair execution terminates with every buffer at the operations' fold of the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq (fun _ => ops_sub) m ρ

set_option maxRecDepth 8192 in
set_option maxHeartbeats 4000000 in
/-- No operation writes argument 0. -/
theorem fold_arg0 (m : (ℓ : Loc nD τ sig) → Buf (Elt F) ℓ) (c : Dev nD) :
    after (ops (F := F)) (launchContents m c) (Proc.devRef .tc main_arg0) = m ((c.tc : Thread nD τ).loc main_arg0) := by
  after_results_simp <;> rfl
set_option maxRecDepth 8192 in
set_option maxHeartbeats 4000000 in
/-- No operation writes argument 1. -/
theorem fold_arg1 (m : (ℓ : Loc nD τ sig) → Buf (Elt F) ℓ) (c : Dev nD) :
    after (ops (F := F)) (launchContents m c) (Proc.devRef .tc main_arg1) = m ((c.tc : Thread nD τ).loc main_arg1) := by
  after_results_simp <;> rfl
set_option maxRecDepth 8192 in
set_option maxHeartbeats 4000000 in
/-- No operation writes argument 2. -/
theorem fold_arg2 (m : (ℓ : Loc nD τ sig) → Buf (Elt F) ℓ) (c : Dev nD) :
    after (ops (F := F)) (launchContents m c) (Proc.devRef .tc main_arg2) = m ((c.tc : Thread nD τ).loc main_arg2) := by
  after_results_simp <;> rfl
set_option maxRecDepth 8192 in
set_option maxHeartbeats 4000000 in
/-- No operation writes argument 3. -/
theorem fold_arg3 (m : (ℓ : Loc nD τ sig) → Buf (Elt F) ℓ) (c : Dev nD) :
    after (ops (F := F)) (launchContents m c) (Proc.devRef .tc main_arg3) = m ((c.tc : Thread nD τ).loc main_arg3) := by
  after_results_simp <;> rfl
set_option maxRecDepth 8192 in
set_option maxHeartbeats 4000000 in
/-- No operation writes argument 4. -/
theorem fold_arg4 (m : (ℓ : Loc nD τ sig) → Buf (Elt F) ℓ) (c : Dev nD) :
    after (ops (F := F)) (launchContents m c) (Proc.devRef .tc main_arg4) = m ((c.tc : Thread nD τ).loc main_arg4) := by
  after_results_simp <;> rfl
set_option maxRecDepth 8192 in
set_option maxHeartbeats 4000000 in
/-- No operation writes argument 5. -/
theorem fold_arg5 (m : (ℓ : Loc nD τ sig) → Buf (Elt F) ℓ) (c : Dev nD) :
    after (ops (F := F)) (launchContents m c) (Proc.devRef .tc main_arg5) = m ((c.tc : Thread nD τ).loc main_arg5) := by
  after_results_simp <;> rfl
set_option maxRecDepth 8192 in
set_option maxHeartbeats 4000000 in
/-- No operation writes argument 6. -/
theorem fold_arg6 (m : (ℓ : Loc nD τ sig) → Buf (Elt F) ℓ) (c : Dev nD) :
    after (ops (F := F)) (launchContents m c) (Proc.devRef .tc main_arg6) = m ((c.tc : Thread nD τ).loc main_arg6) := by
  after_results_simp <;> rfl
set_option maxRecDepth 8192 in
set_option maxHeartbeats 4000000 in
/-- No operation writes argument 7. -/
theorem fold_arg7 (m : (ℓ : Loc nD τ sig) → Buf (Elt F) ℓ) (c : Dev nD) :
    after (ops (F := F)) (launchContents m c) (Proc.devRef .tc main_arg7) = m ((c.tc : Thread nD τ).loc main_arg7) := by
  after_results_simp <;> rfl

end Cert.Gcn.RefOps

end
-- ==== Proof.CastsR.lean ====
/-
  Laying a value into a buffer whose type is the value's own, or reading it back, changes nothing: the transports the
  outlined functions' operations carry are identities.
-/
import proofs.«170115_j5995774345336_2_alg».proof.ReferenceIdeal
import proofs.«170115_j5995774345336_2_alg».proof.Proof.Gen.ReferenceIdeal
import Idealize.ShloMosaic.Lib.StableHlo.Run
import Idealize.ShloMosaic.PureOps.Ideal

noncomputable section

namespace Cert.Gcn.CastsR

open Cert.ReferenceIdeal Cert.ReferenceIdeal.Gen Idealize.ShloMosaic Idealize.ShloMosaic.TcCoe Idealize.SL.Sem Idealize.ShloMosaic.StableHlo

theorem toBuf_self {T : BufTy} (r : Ref sig .tc) (h1 : r.ty = T) (h2 : r.space ≠ .host) (h3 : r.isScoped = false) (v : T.Contents (Elt Ideal)) :
    HEq ((StableHlo.TRef.of r h1 h2 h3).toBuf v) v := by
  subst h1; rfl
theorem ofBuf_self {T : BufTy} (r : Ref sig .tc) (h1 : r.ty = T) (h2 : r.space ≠ .host) (h3 : r.isScoped = false) (v : r.ty.Contents (Elt Ideal)) :
    HEq ((StableHlo.TRef.of r h1 h2 h3).ofBuf v) v := by
  subst h1; rfl

theorem toBuf_cst_2 (h1 h2 h3) (v : (⟨S_, .f32⟩ : BufTy).Contents (Elt Ideal)) :
    (StableHlo.TRef.of (T := ⟨S_, .f32⟩) main_cst_2 h1 h2 h3).toBuf v = v := eq_of_heq (toBuf_self _ h1 h2 h3 v)
theorem ofBuf_cst_2 (h1 h2 h3) (v : (⟨S_, .f32⟩ : BufTy).Contents (Elt Ideal)) :
    (StableHlo.TRef.of (T := ⟨S_, .f32⟩) main_cst_2 h1 h2 h3).ofBuf v = v := eq_of_heq (ofBuf_self _ h1 h2 h3 v)
theorem toBuf_call0_v0 (h1 h2 h3) (v : (⟨S_, .f32⟩ : BufTy).Contents (Elt Ideal)) :
    (StableHlo.TRef.of (T := ⟨S_, .f32⟩) main_call0_v0 h1 h2 h3).toBuf v = v := eq_of_heq (toBuf_self _ h1 h2 h3 v)
theorem ofBuf_call0_v0 (h1 h2 h3) (v : (⟨S_, .f32⟩ : BufTy).Contents (Elt Ideal)) :
    (StableHlo.TRef.of (T := ⟨S_, .f32⟩) main_call0_v0 h1 h2 h3).ofBuf v = v := eq_of_heq (ofBuf_self _ h1 h2 h3 v)
theorem toBuf_call0_v1 (h1 h2 h3) (v : (⟨S100000, .f32⟩ : BufTy).Contents (Elt Ideal)) :
    (StableHlo.TRef.of (T := ⟨S100000, .f32⟩) main_call0_v1 h1 h2 h3).toBuf v = v := eq_of_heq (toBuf_self _ h1 h2 h3 v)
theorem ofBuf_call0_v1 (h1 h2 h3) (v : (⟨S100000, .f32⟩ : BufTy).Contents (Elt Ideal)) :
    (StableHlo.TRef.of (T := ⟨S100000, .f32⟩) main_call0_v1 h1 h2 h3).ofBuf v = v := eq_of_heq (ofBuf_self _ h1 h2 h3 v)
theorem toBuf_v12 (h1 h2 h3) (v : (⟨S100000, .i1⟩ : BufTy).Contents (Elt Ideal)) :
    (StableHlo.TRef.of (T := ⟨S100000, .i1⟩) main_v12 h1 h2 h3).toBuf v = v := eq_of_heq (toBuf_self _ h1 h2 h3 v)
theorem ofBuf_v12 (h1 h2 h3) (v : (⟨S100000, .i1⟩ : BufTy).Contents (Elt Ideal)) :
    (StableHlo.TRef.of (T := ⟨S100000, .i1⟩) main_v12 h1 h2 h3).ofBuf v = v := eq_of_heq (ofBuf_self _ h1 h2 h3 v)
theorem toBuf_v13 (h1 h2 h3) (v : (⟨S100000, .f32⟩ : BufTy).Contents (Elt Ideal)) :
    (StableHlo.TRef.of (T := ⟨S100000, .f32⟩) main_v13 h1 h2 h3).toBuf v = v := eq_of_heq (toBuf_self _ h1 h2 h3 v)
theorem ofBuf_v13 (h1 h2 h3) (v : (⟨S100000, .f32⟩ : BufTy).Contents (Elt Ideal)) :
    (StableHlo.TRef.of (T := ⟨S100000, .f32⟩) main_v13 h1 h2 h3).ofBuf v = v := eq_of_heq (ofBuf_self _ h1 h2 h3 v)
theorem toBuf_v14 (h1 h2 h3) (v : (⟨S100000, .f32⟩ : BufTy).Contents (Elt Ideal)) :
    (StableHlo.TRef.of (T := ⟨S100000, .f32⟩) main_v14 h1 h2 h3).toBuf v = v := eq_of_heq (toBuf_self _ h1 h2 h3 v)
theorem ofBuf_v14 (h1 h2 h3) (v : (⟨S100000, .f32⟩ : BufTy).Contents (Elt Ideal)) :
    (StableHlo.TRef.of (T := ⟨S100000, .f32⟩) main_v14 h1 h2 h3).ofBuf v = v := eq_of_heq (ofBuf_self _ h1 h2 h3 v)
theorem toBuf_call1_cst (h1 h2 h3) (v : (⟨S_, .f32⟩ : BufTy).Contents (Elt Ideal)) :
    (StableHlo.TRef.of (T := ⟨S_, .f32⟩) main_call1_cst h1 h2 h3).toBuf v = v := eq_of_heq (toBuf_self _ h1 h2 h3 v)
theorem ofBuf_call1_cst (h1 h2 h3) (v : (⟨S_, .f32⟩ : BufTy).Contents (Elt Ideal)) :
    (StableHlo.TRef.of (T := ⟨S_, .f32⟩) main_call1_cst h1 h2 h3).ofBuf v = v := eq_of_heq (ofBuf_self _ h1 h2 h3 v)
theorem toBuf_call1_v0 (h1 h2 h3) (v : (⟨S100000x128, .f32⟩ : BufTy).Contents (Elt Ideal)) :
    (StableHlo.TRef.of (T := ⟨S100000x128, .f32⟩) main_call1_v0 h1 h2 h3).toBuf v = v := eq_of_heq (toBuf_self _ h1 h2 h3 v)
theorem ofBuf_call1_v0 (h1 h2 h3) (v : (⟨S100000x128, .f32⟩ : BufTy).Contents (Elt Ideal)) :
    (StableHlo.TRef.of (T := ⟨S100000x128, .f32⟩) main_call1_v0 h1 h2 h3).ofBuf v = v := eq_of_heq (ofBuf_self _ h1 h2 h3 v)
theorem toBuf_v46 (h1 h2 h3) (v : (⟨S100000x128, .f32⟩ : BufTy).Contents (Elt Ideal)) :
    (StableHlo.TRef.of (T := ⟨S100000x128, .f32⟩) main_v46 h1 h2 h3).toBuf v = v := eq_of_heq (toBuf_self _ h1 h2 h3 v)
theorem ofBuf_v46 (h1 h2 h3) (v : (⟨S100000x128, .f32⟩ : BufTy).Contents (Elt Ideal)) :
    (StableHlo.TRef.of (T := ⟨S100000x128, .f32⟩) main_v46 h1 h2 h3).ofBuf v = v := eq_of_heq (ofBuf_self _ h1 h2 h3 v)
theorem toBuf_v47 (h1 h2 h3) (v : (⟨S100000x128, .f32⟩ : BufTy).Contents (Elt Ideal)) :
    (StableHlo.TRef.of (T := ⟨S100000x128, .f32⟩) main_v47 h1 h2 h3).toBuf v = v := eq_of_heq (toBuf_self _ h1 h2 h3 v)
theorem ofBuf_v47 (h1 h2 h3) (v : (⟨S100000x128, .f32⟩ : BufTy).Contents (Elt Ideal)) :
    (StableHlo.TRef.of (T := ⟨S100000x128, .f32⟩) main_v47 h1 h2 h3).ofBuf v = v := eq_of_heq (ofBuf_self _ h1 h2 h3 v)
theorem toBuf_call2_cst (h1 h2 h3) (v : (⟨S_, .f32⟩ : BufTy).Contents (Elt Ideal)) :
    (StableHlo.TRef.of (T := ⟨S_, .f32⟩) main_call2_cst h1 h2 h3).toBuf v = v := eq_of_heq (toBuf_self _ h1 h2 h3 v)
theorem ofBuf_call2_cst (h1 h2 h3) (v : (⟨S_, .f32⟩ : BufTy).Contents (Elt Ideal)) :
    (StableHlo.TRef.of (T := ⟨S_, .f32⟩) main_call2_cst h1 h2 h3).ofBuf v = v := eq_of_heq (ofBuf_self _ h1 h2 h3 v)
theorem toBuf_call2_v0 (h1 h2 h3) (v : (⟨S100000x128, .f32⟩ : BufTy).Contents (Elt Ideal)) :
    (StableHlo.TRef.of (T := ⟨S100000x128, .f32⟩) main_call2_v0 h1 h2 h3).toBuf v = v := eq_of_heq (toBuf_self _ h1 h2 h3 v)
theorem ofBuf_call2_v0 (h1 h2 h3) (v : (⟨S100000x128, .f32⟩ : BufTy).Contents (Elt Ideal)) :
    (StableHlo.TRef.of (T := ⟨S100000x128, .f32⟩) main_call2_v0 h1 h2 h3).ofBuf v = v := eq_of_heq (ofBuf_self _ h1 h2 h3 v)
theorem toBuf_v64 (h1 h2 h3) (v : (⟨S100000x128, .f32⟩ : BufTy).Contents (Elt Ideal)) :
    (StableHlo.TRef.of (T := ⟨S100000x128, .f32⟩) main_v64 h1 h2 h3).toBuf v = v := eq_of_heq (toBuf_self _ h1 h2 h3 v)
theorem ofBuf_v64 (h1 h2 h3) (v : (⟨S100000x128, .f32⟩ : BufTy).Contents (Elt Ideal)) :
    (StableHlo.TRef.of (T := ⟨S100000x128, .f32⟩) main_v64 h1 h2 h3).ofBuf v = v := eq_of_heq (ofBuf_self _ h1 h2 h3 v)
theorem toBuf_v65 (h1 h2 h3) (v : (⟨S100000x128, .f32⟩ : BufTy).Contents (Elt Ideal)) :
    (StableHlo.TRef.of (T := ⟨S100000x128, .f32⟩) main_v65 h1 h2 h3).toBuf v = v := eq_of_heq (toBuf_self _ h1 h2 h3 v)
theorem ofBuf_v65 (h1 h2 h3) (v : (⟨S100000x128, .f32⟩ : BufTy).Contents (Elt Ideal)) :
    (StableHlo.TRef.of (T := ⟨S100000x128, .f32⟩) main_v65 h1 h2 h3).ofBuf v = v := eq_of_heq (ofBuf_self _ h1 h2 h3 v)

end Cert.Gcn.CastsR

end
-- ==== Proof.RefGraph.lean ====
/-
  The reference's graph side: what its first three slices of host operations leave, as functions of the edge list.
-/
import proofs.«170115_j5995774345336_2_alg».proof.ReferenceIdeal
import proofs.«170115_j5995774345336_2_alg».proof.Proof.Gen.ReferenceIdeal
import proofs.«170115_j5995774345336_2_alg».proof.Proof.RefOps
import proofs.«170115_j5995774345336_2_alg».proof.Proof.Stages
import proofs.«170115_j5995774345336_2_alg».proof.Proof.CastsR
import Idealize.ShloMosaic.Lib.StableHlo.Run

set_option maxRecDepth 16384

noncomputable section

namespace Cert.Gcn.RefGraph

open Cert.ReferenceIdeal Cert.ReferenceIdeal.Gen Idealize.ShloMosaic Idealize.ShloMosaic.TcCoe Idealize.SL.Sem Idealize.ShloMosaic.StableHlo
open Cert.Gcn Cert.Gcn.RefOps Cert.Gcn.CastsR

variable (V : Valuation τ sig (Elt Ideal))

/-! ### The graph side, stretch by stretch, over any starting contents `V`

Three stretches compute it: the first the endpoints, the degree test and the degree's inverse square root; the second
(the outlined masked select) `dinv`; the third the edge weights. Each is read with the contents it starts from kept
abstract, so that a stretch's term is over the few buffers it reads and not over the whole program before it. -/

set_option maxHeartbeats 16000000 in
theorem g0_v3 : after opsG0 V (Proc.devRef .tc main_v3) = Stage.src (V (Proc.devRef .tc main_arg1)) := by
  after_results <;> rfl
set_option maxHeartbeats 16000000 in
theorem g0_v6 : after opsG0 V (Proc.devRef .tc main_v6) = Stage.dst (V (Proc.devRef .tc main_arg1)) := by
  after_results <;> rfl
set_option maxHeartbeats 16000000 in
theorem g0_v12 : after opsG0 V (Proc.devRef .tc main_v12) = Stage.degPositive (V (Proc.devRef .tc main_arg1)) := by
  after_results <;> rfl
set_option maxHeartbeats 16000000 in
theorem g0_v13 : after opsG0 V (Proc.devRef .tc main_v13) = Host.rsqrt (Stage.deg (V (Proc.devRef .tc main_arg1))) := by
  after_results <;> rfl
set_option maxHeartbeats 16000000 in
theorem g0_cst2 : after opsG0 V (Proc.devRef .tc main_cst_2) = constant (F := Ideal) S_ .f32 0x00000000#32 := by
  after_results <;> rfl
set_option maxHeartbeats 16000000 in
theorem g0_arg0 : after opsG0 V (Proc.devRef .tc main_arg0) = V (Proc.devRef .tc main_arg0) := by
  after_results <;> rfl
set_option maxHeartbeats 16000000 in
theorem g0_arg1 : after opsG0 V (Proc.devRef .tc main_arg1) = V (Proc.devRef .tc main_arg1) := by
  after_results <;> rfl
set_option maxHeartbeats 16000000 in
theorem g0_arg2 : after opsG0 V (Proc.devRef .tc main_arg2) = V (Proc.devRef .tc main_arg2) := by
  after_results <;> rfl
set_option maxHeartbeats 16000000 in
theorem g0_arg3 : after opsG0 V (Proc.devRef .tc main_arg3) = V (Proc.devRef .tc main_arg3) := by
  after_results <;> rfl
set_option maxHeartbeats 16000000 in
theorem g0_arg4 : after opsG0 V (Proc.devRef .tc main_arg4) = V (Proc.devRef .tc main_arg4) := by
  after_results <;> rfl
set_option maxHeartbeats 16000000 in
theorem g0_arg5 : after opsG0 V (Proc.devRef .tc main_arg5) = V (Proc.devRef .tc main_arg5) := by
  after_results <;> rfl
set_option maxHeartbeats 16000000 in
theorem g0_arg6 : after opsG0 V (Proc.devRef .tc main_arg6) = V (Proc.devRef .tc main_arg6) := by
  after_results <;> rfl
set_option maxHeartbeats 16000000 in
theorem g0_arg7 : after opsG0 V (Proc.devRef .tc main_arg7) = V (Proc.devRef .tc main_arg7) := by
  after_results <;> rfl

set_option maxHeartbeats 16000000 in
/-- The masked select: the inverse square root where the degree is positive, zero elsewhere. -/
theorem g1_v14 : after opsG1 (after opsG0 V) (Proc.devRef .tc main_v14) = Stage.dinv (V (Proc.devRef .tc main_arg1)) := by
  have h12 := g0_v12 V
  have h13 := g0_v13 V
  have hc := g0_cst2 V
  generalize after opsG0 V = U at h12 h13 hc ⊢
  after_results
  rw [h12, h13, hc]
  simp only [toBuf_cst_2, ofBuf_cst_2, toBuf_call0_v0, ofBuf_call0_v0, toBuf_call0_v1, ofBuf_call0_v1, toBuf_v12, ofBuf_v12, toBuf_v13, ofBuf_v13, toBuf_v14, ofBuf_v14]
  rfl
set_option maxHeartbeats 16000000 in
theorem g1_v3 : after opsG1 (after opsG0 V) (Proc.devRef .tc main_v3) = Stage.src (V (Proc.devRef .tc main_arg1)) := by
  have h := g0_v3 V
  generalize after opsG0 V = U at h ⊢
  after_results
  exact h
set_option maxHeartbeats 16000000 in
theorem g1_v6 : after opsG1 (after opsG0 V) (Proc.devRef .tc main_v6) = Stage.dst (V (Proc.devRef .tc main_arg1)) := by
  have h := g0_v6 V
  generalize after opsG0 V = U at h ⊢
  after_results
  exact h
set_option maxHeartbeats 16000000 in
theorem g1_arg0 : after opsG1 (after opsG0 V) (Proc.devRef .tc main_arg0) = V (Proc.devRef .tc main_arg0) := by
  have h := g0_arg0 V
  generalize after opsG0 V = U at h ⊢
  after_results
  exact h
set_option maxHeartbeats 16000000 in
theorem g1_arg1 : after opsG1 (after opsG0 V) (Proc.devRef .tc main_arg1) = V (Proc.devRef .tc main_arg1) := by
  have h := g0_arg1 V
  generalize after opsG0 V = U at h ⊢
  after_results
  exact h
set_option maxHeartbeats 16000000 in
theorem g1_arg2 : after opsG1 (after opsG0 V) (Proc.devRef .tc main_arg2) = V (Proc.devRef .tc main_arg2) := by
  have h := g0_arg2 V
  generalize after opsG0 V = U at h ⊢
  after_results
  exact h
set_option maxHeartbeats 16000000 in
theorem g1_arg3 : after opsG1 (after opsG0 V) (Proc.devRef .tc main_arg3) = V (Proc.devRef .tc main_arg3) := by
  have h := g0_arg3 V
  generalize after opsG0 V = U at h ⊢
  after_results
  exact h
set_option maxHeartbeats 16000000 in
theorem g1_arg4 : after opsG1 (after opsG0 V) (Proc.devRef .tc main_arg4) = V (Proc.devRef .tc main_arg4) := by
  have h := g0_arg4 V
  generalize after opsG0 V = U at h ⊢
  after_results
  exact h
set_option maxHeartbeats 16000000 in
theorem g1_arg5 : after opsG1 (after opsG0 V) (Proc.devRef .tc main_arg5) = V (Proc.devRef .tc main_arg5) := by
  have h := g0_arg5 V
  generalize after opsG0 V = U at h ⊢
  after_results
  exact h
set_option maxHeartbeats 16000000 in
theorem g1_arg6 : after opsG1 (after opsG0 V) (Proc.devRef .tc main_arg6) = V (Proc.devRef .tc main_arg6) := by
  have h := g0_arg6 V
  generalize after opsG0 V = U at h ⊢
  after_results
  exact h
set_option maxHeartbeats 16000000 in
theorem g1_arg7 : after opsG1 (after opsG0 V) (Proc.devRef .tc main_arg7) = V (Proc.devRef .tc main_arg7) := by
  have h := g0_arg7 V
  generalize after opsG0 V = U at h ⊢
  after_results
  exact h

set_option maxHeartbeats 32000000 in
/-- The edge weights: `dinv` gathered at both endpoints, multiplied. -/
theorem g2_v29 : after opsG2 (after opsG1 (after opsG0 V)) (Proc.devRef .tc main_v29) = Stage.norm (V (Proc.devRef .tc main_arg1)) := by
  have h14 := g1_v14 V
  have h3 := g1_v3 V
  have h6 := g1_v6 V
  generalize after opsG1 (after opsG0 V) = U at h14 h3 h6 ⊢
  after_results
  rw [h14, h3, h6]
  rfl
set_option maxHeartbeats 16000000 in
theorem g2_v3 : after opsG2 (after opsG1 (after opsG0 V)) (Proc.devRef .tc main_v3) = Stage.src (V (Proc.devRef .tc main_arg1)) := by
  have h := g1_v3 V
  generalize after opsG1 (after opsG0 V) = U at h ⊢
  after_results
  exact h
set_option maxHeartbeats 16000000 in
theorem g2_v6 : after opsG2 (after opsG1 (after opsG0 V)) (Proc.devRef .tc main_v6) = Stage.dst (V (Proc.devRef .tc main_arg1)) := by
  have h := g1_v6 V
  generalize after opsG1 (after opsG0 V) = U at h ⊢
  after_results
  exact h
set_option maxHeartbeats 16000000 in
theorem g2_arg0 : after opsG2 (after opsG1 (after opsG0 V)) (Proc.devRef .tc main_arg0) = V (Proc.devRef .tc main_arg0) := by
  have h := g1_arg0 V
  generalize after opsG1 (after opsG0 V) = U at h ⊢
  after_results
  exact h
set_option maxHeartbeats 16000000 in
theorem g2_arg1 : after opsG2 (after opsG1 (after opsG0 V)) (Proc.devRef .tc main_arg1) = V (Proc.devRef .tc main_arg1) := by
  have h := g1_arg1 V
  generalize after opsG1 (after opsG0 V) = U at h ⊢
  after_results
  exact h
set_option maxHeartbeats 16000000 in
theorem g2_arg2 : after opsG2 (after opsG1 (after opsG0 V)) (Proc.devRef .tc main_arg2) = V (Proc.devRef .tc main_arg2) := by
  have h := g1_arg2 V
  generalize after opsG1 (after opsG0 V) = U at h ⊢
  after_results
  exact h
set_option maxHeartbeats 16000000 in
theorem g2_arg3 : after opsG2 (after opsG1 (after opsG0 V)) (Proc.devRef .tc main_arg3) = V (Proc.devRef .tc main_arg3) := by
  have h := g1_arg3 V
  generalize after opsG1 (after opsG0 V) = U at h ⊢
  after_results
  exact h
set_option maxHeartbeats 16000000 in
theorem g2_arg4 : after opsG2 (after opsG1 (after opsG0 V)) (Proc.devRef .tc main_arg4) = V (Proc.devRef .tc main_arg4) := by
  have h := g1_arg4 V
  generalize after opsG1 (after opsG0 V) = U at h ⊢
  after_results
  exact h
set_option maxHeartbeats 16000000 in
theorem g2_arg5 : after opsG2 (after opsG1 (after opsG0 V)) (Proc.devRef .tc main_arg5) = V (Proc.devRef .tc main_arg5) := by
  have h := g1_arg5 V
  generalize after opsG1 (after opsG0 V) = U at h ⊢
  after_results
  exact h
set_option maxHeartbeats 16000000 in
theorem g2_arg6 : after opsG2 (after opsG1 (after opsG0 V)) (Proc.devRef .tc main_arg6) = V (Proc.devRef .tc main_arg6) := by
  have h := g1_arg6 V
  generalize after opsG1 (after opsG0 V) = U at h ⊢
  after_results
  exact h
set_option maxHeartbeats 16000000 in
theorem g2_arg7 : after opsG2 (after opsG1 (after opsG0 V)) (Proc.devRef .tc main_arg7) = V (Proc.devRef .tc main_arg7) := by
  have h := g1_arg7 V
  generalize after opsG1 (after opsG0 V) = U at h ⊢
  after_results
  exact h

end Cert.Gcn.RefGraph

end
-- ==== Proof.RefLayers.lean ====
/-
  The reference's three layers, each read over the contents `U` it starts from: a layer's slice leaves, in the
  buffer the next one reads, "project by the weight matrix, sum over neighbourhoods with the endpoints and weights
  found in `U`, add the bias rows" — clamped at zero for the first two — and writes neither the endpoints, nor the
  weights, nor any argument array.
-/
import proofs.«170115_j5995774345336_2_alg».proof.ReferenceIdeal
import proofs.«170115_j5995774345336_2_alg».proof.Proof.Gen.ReferenceIdeal
import proofs.«170115_j5995774345336_2_alg».proof.Proof.RefOps
import proofs.«170115_j5995774345336_2_alg».proof.Proof.Stages
import proofs.«170115_j5995774345336_2_alg».proof.Proof.CastsR
import Idealize.ShloMosaic.Lib.StableHlo.Run

set_option maxRecDepth 16384

noncomputable section

namespace Cert.Gcn.RefLayers

open Cert.ReferenceIdeal Cert.ReferenceIdeal.Gen Idealize.ShloMosaic Idealize.ShloMosaic.TcCoe Idealize.SL.Sem Idealize.ShloMosaic.StableHlo
open Cert.Gcn Cert.Gcn.RefOps Cert.Gcn.CastsR

variable (U : Valuation τ sig (Elt Ideal))

set_option maxHeartbeats 64000000 in
/-- Layer 1, clamped. -/
theorem l1_v47 : after opsL1 U (Proc.devRef .tc main_v47)
    = Stage.relu128 (addf (Stage.aggWith128 (Host.dotGeneral (φ₁ := .f32) (φ₂ := .f32) dot_S100000x128_S128x128_S100000x128_1_0_0_1_n_n none (U (Proc.devRef .tc main_arg0) : FVec Ideal S100000x128 .f32) (U (Proc.devRef .tc main_arg2) : FVec Ideal S128x128 .f32))
        (U (Proc.devRef .tc main_v3)) (U (Proc.devRef .tc main_v6)) (U (Proc.devRef .tc main_v29))) (Stage.rows128 (U (Proc.devRef .tc main_arg3)))) := by
  after_results_simp
  simp only [toBuf_call1_cst, ofBuf_call1_cst, toBuf_call1_v0, ofBuf_call1_v0, toBuf_v46, ofBuf_v46, toBuf_v47, ofBuf_v47, toBuf_call2_cst, ofBuf_call2_cst, toBuf_call2_v0, ofBuf_call2_v0, toBuf_v64, ofBuf_v64, toBuf_v65, ofBuf_v65]
  rfl
set_option maxHeartbeats 16000000 in
theorem l1_v3 : after opsL1 U (Proc.devRef .tc main_v3) = U (Proc.devRef .tc main_v3) := by
  after_results_simp <;> rfl
set_option maxHeartbeats 16000000 in
theorem l1_v6 : after opsL1 U (Proc.devRef .tc main_v6) = U (Proc.devRef .tc main_v6) := by
  after_results_simp <;> rfl
set_option maxHeartbeats 16000000 in
theorem l1_v29 : after opsL1 U (Proc.devRef .tc main_v29) = U (Proc.devRef .tc main_v29) := by
  after_results_simp <;> rfl
set_option maxHeartbeats 16000000 in
theorem l1_arg4 : after opsL1 U (Proc.devRef .tc main_arg4) = U (Proc.devRef .tc main_arg4) := by
  after_results_simp <;> rfl
set_option maxHeartbeats 16000000 in
theorem l1_arg5 : after opsL1 U (Proc.devRef .tc main_arg5) = U (Proc.devRef .tc main_arg5) := by
  after_results_simp <;> rfl
set_option maxHeartbeats 16000000 in
theorem l1_arg6 : after opsL1 U (Proc.devRef .tc main_arg6) = U (Proc.devRef .tc main_arg6) := by
  after_results_simp <;> rfl
set_option maxHeartbeats 16000000 in
theorem l1_arg7 : after opsL1 U (Proc.devRef .tc main_arg7) = U (Proc.devRef .tc main_arg7) := by
  after_results_simp <;> rfl

set_option maxHeartbeats 64000000 in
/-- Layer 2, clamped. -/
theorem l2_v65 : after opsL2 U (Proc.devRef .tc main_v65)
    = Stage.relu128 (addf (Stage.aggWith128 (Host.dotGeneral (φ₁ := .f32) (φ₂ := .f32) dot_S100000x128_S128x128_S100000x128_1_0_0_1_n_n none (U (Proc.devRef .tc main_v47) : FVec Ideal S100000x128 .f32) (U (Proc.devRef .tc main_arg4) : FVec Ideal S128x128 .f32))
        (U (Proc.devRef .tc main_v3)) (U (Proc.devRef .tc main_v6)) (U (Proc.devRef .tc main_v29))) (Stage.rows128 (U (Proc.devRef .tc main_arg5)))) := by
  after_results_simp
  simp only [toBuf_call1_cst, ofBuf_call1_cst, toBuf_call1_v0, ofBuf_call1_v0, toBuf_v46, ofBuf_v46, toBuf_v47, ofBuf_v47, toBuf_call2_cst, ofBuf_call2_cst, toBuf_call2_v0, ofBuf_call2_v0, toBuf_v64, ofBuf_v64, toBuf_v65, ofBuf_v65]
  rfl
set_option maxHeartbeats 16000000 in
theorem l2_v3 : after opsL2 U (Proc.devRef .tc main_v3) = U (Proc.devRef .tc main_v3) := by
  after_results_simp <;> rfl
set_option maxHeartbeats 16000000 in
theorem l2_v6 : after opsL2 U (Proc.devRef .tc main_v6) = U (Proc.devRef .tc main_v6) := by
  after_results_simp <;> rfl
set_option maxHeartbeats 16000000 in
theorem l2_v29 : after opsL2 U (Proc.devRef .tc main_v29) = U (Proc.devRef .tc main_v29) := by
  after_results_simp <;> rfl
set_option maxHeartbeats 16000000 in
theorem l2_arg6 : after opsL2 U (Proc.devRef .tc main_arg6) = U (Proc.devRef .tc main_arg6) := by
  after_results_simp <;> rfl
set_option maxHeartbeats 16000000 in
theorem l2_arg7 : after opsL2 U (Proc.devRef .tc main_arg7) = U (Proc.devRef .tc main_arg7) := by
  after_results_simp <;> rfl

set_option maxHeartbeats 64000000 in
/-- Layer 3: the output. -/
theorem l3_v82 : after opsL3 U (Proc.devRef .tc main_v82)
    = addf (Stage.aggWith64 (Host.dotGeneral (φ₁ := .f32) (φ₂ := .f32) dot_S100000x128_S128x64_S100000x64_1_0_0_1_n_n none (U (Proc.devRef .tc main_v65) : FVec Ideal S100000x128 .f32) (U (Proc.devRef .tc main_arg6) : FVec Ideal S128x64 .f32))
        (U (Proc.devRef .tc main_v3)) (U (Proc.devRef .tc main_v6)) (U (Proc.devRef .tc main_v29))) (Stage.rows64 (U (Proc.devRef .tc main_arg7))) := by
  after_results_simp <;> rfl

end Cert.Gcn.RefLayers

end
-- ==== Proof.RefRun.lean ====
/-
  The idealized reference's run, read back: every weakly fair execution terminates with the result buffer at
  `Stage.refOut` of the argument arrays — three layers of project, sum over neighbourhoods, add the bias, clamped at
  zero between layers — and the argument arrays unchanged. The fold through the line of operations is taken slice by
  slice: the graph side from the launch contents, then each layer over what the slices before it leave.
-/
import proofs.«170115_j5995774345336_2_alg».proof.ReferenceIdeal
import proofs.«170115_j5995774345336_2_alg».proof.Proof.Gen.ReferenceIdeal
import proofs.«170115_j5995774345336_2_alg».proof.Proof.RefOps
import proofs.«170115_j5995774345336_2_alg».proof.Proof.RefGraph
import proofs.«170115_j5995774345336_2_alg».proof.Proof.RefLayers
import proofs.«170115_j5995774345336_2_alg».proof.Proof.Stages

set_option maxRecDepth 16384

noncomputable section

namespace Cert.Gcn.RefRun

open Cert.ReferenceIdeal Cert.ReferenceIdeal.Gen Idealize.ShloMosaic Idealize.ShloMosaic.TcCoe Idealize.SL.Sem Idealize.ShloMosaic.StableHlo
open Cert.Gcn Cert.Gcn.RefOps Cert.Gcn.RefGraph Cert.Gcn.RefLayers

set_option maxHeartbeats 16000000 in
/-- The fold at the result buffer is the reference's output as a function of the argument arrays. -/
theorem fold_result (m : (ℓ : Loc nD τ sig) → Buf (Elt Ideal) ℓ) (c : Dev nD) :
    after (ops (F := Ideal)) (launchContents m c) (Proc.devRef .tc main_v82)
      = Stage.refOut (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7)) := by
  rw [after_ops, l3_v82]
  rw [l2_v65, l2_v3, l2_v6, l2_v29, l2_arg6, l2_arg7]
  rw [l1_v47, l1_v3, l1_v6, l1_v29, l1_arg4, l1_arg5, l1_arg6, l1_arg7]
  rw [g2_v29, g2_v3, g2_v6, g2_arg0, g2_arg2, g2_arg3, g2_arg4, g2_arg5, g2_arg6, g2_arg7]
  rfl

/-- On every device, from any memory with zero counters: every weakly fair execution of @main terminates with the result
    at `Stage.refOut` of the argument arrays and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v82)
        = Stage.refOut (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v82).trans (fold_result m c),
      (h c main_arg0).trans (fold_arg0 m c),
      (h c main_arg1).trans (fold_arg1 m c),
      (h c main_arg2).trans (fold_arg2 m c),
      (h c main_arg3).trans (fold_arg3 m c),
      (h c main_arg4).trans (fold_arg4 m c),
      (h c main_arg5).trans (fold_arg5 m c),
      (h c main_arg6).trans (fold_arg6 m c),
      (h c main_arg7).trans (fold_arg7 m c)⟩)
    (run_fold m ρ)

end Cert.Gcn.RefRun

end
-- ==== Proof.RefLaws.lean ====
/-
  The reference's output is the kernel's: the two laws that join them.

  (1) The host's matrix product is the plain sum `dense`: at the exact values a `dot_general` read at (r, c) is
  `∑ k, a[r, k] · w[k, c]`. (2) Adding the bias vector, laid out as 100000 equal rows, and clamping at zero is
  `biasRelu` with the bias as a one-row matrix: both are `max (a[r, k] + b[k]) 0` at (r, k). Neither law moves a
  factor across a sum or cancels anything, so neither needs the inputs to be finite. With them the reference's three
  layers are, term by term, the kernel's.
-/
import proofs.«170115_j5995774345336_2_alg».proof.Proof.Stages

noncomputable section

namespace Cert.Gcn.Stage

open Cert.ReferenceIdeal Cert.ReferenceIdeal.Gen Idealize.ShloMosaic Idealize.ShloMosaic.TcCoe Idealize.ShloMosaic.ValueIdx

/-! ### The host's matrix product [100000, 128] × [128, 128] is the plain sum -/

theorem lhs_row128 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs_col128 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem rhs_row128 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem rhs_col128 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- At the exact values jnp's `dot_general` on the host has no accumulator and no schedule left in it: entry (r, c) is the
    sum over the 128 contracted positions of row `r` of the left operand against column `c` of the right one. -/
theorem dot128_eq_dense (a : FVec Ideal S100000x128 .f32) (w : FVec Ideal S128x128 .f32) :
    Host.dotGeneral dot_S100000x128_S128x128_S100000x128_1_0_0_1_n_n none a w = dense (a : Mat 100000 128) (w : Mat 128 128) := by
  funext i
  obtain ⟨r, s, rfl⟩ : ∃ (r : Fin 100000) (s : Fin 128), i = ix2 r s := ⟨i 0, i 1, eq_ix2 i⟩
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 r s) ((contrEquiv1 dot_S100000x128_S128x128_S100000x128_1_0_0_1_n_n 128 rfl rfl).symm k) = ix2 r k := funext fun a => Fin.ext (by
    match a with
    | ⟨0, _⟩ => exact lhs_row128 _ _
    | ⟨1, _⟩ => exact (lhs_col128 _ _).trans hk)
  have er : dot_S100000x128_S128x128_S100000x128_1_0_0_1_n_n.rhsIdx (ix2 r s) ((contrEquiv1 dot_S100000x128_S128x128_S100000x128_1_0_0_1_n_n 128 rfl rfl).symm k) = ix2 k s := funext fun a => Fin.ext (by
    match a with
    | ⟨0, _⟩ => exact (rhs_row128 _ _).trans hk
    | ⟨1, _⟩ => exact rhs_col128 _ _)
  rw [el, er]

/-! ### The host's matrix product [100000, 128] × [128, 64] is the plain sum -/

theorem lhs_row64 (i : S100000x64.Idx) (q : dot_S100000x128_S128x64_S100000x64_1_0_0_1_n_n.contr.Idx) :
    (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
theorem lhs_col64 (i : S100000x64.Idx) (q : dot_S100000x128_S128x64_S100000x64_1_0_0_1_n_n.contr.Idx) :
    (dot_S100000x128_S128x64_S100000x64_1_0_0_1_n_n.lhsIdx i q 1).val = (q ⟨0, by decide⟩).val :=
  dot_S100000x128_S128x64_S100000x64_1_0_0_1_n_n.lhsIdx_val_of_single rfl i q
theorem rhs_row64 (i : S100000x64.Idx) (q : dot_S100000x128_S128x64_S100000x64_1_0_0_1_n_n.contr.Idx) :
    (dot_S100000x128_S128x64_S100000x64_1_0_0_1_n_n.rhsIdx i q 0).val = (q ⟨0, by decide⟩).val :=
  dot_S100000x128_S128x64_S100000x64_1_0_0_1_n_n.rhsIdx_val_of_single rfl i q
theorem rhs_col64 (i : S100000x64.Idx) (q : dot_S100000x128_S128x64_S100000x64_1_0_0_1_n_n.contr.Idx) :
    (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl

/-- At the exact values jnp's `dot_general` on the host has no accumulator and no schedule left in it: entry (r, c) is the
    sum over the 128 contracted positions of row `r` of the left operand against column `c` of the right one. -/
theorem dot64_eq_dense (a : FVec Ideal S100000x128 .f32) (w : FVec Ideal S128x64 .f32) :
    Host.dotGeneral dot_S100000x128_S128x64_S100000x64_1_0_0_1_n_n none a w = dense (a : Mat 100000 128) (w : Mat 128 64) := by
  funext i
  obtain ⟨r, s, rfl⟩ : ∃ (r : Fin 100000) (s : Fin 64), i = ix2 r s := ⟨i 0, i 1, eq_ix2 i⟩
  simp only [Host.dotGeneral]
  rw [Ideal.dotGeneral_apply, ← Equiv.sum_comp (contrEquiv1 dot_S100000x128_S128x64_S100000x64_1_0_0_1_n_n 128 rfl rfl).symm]
  refine Finset.sum_congr rfl fun k _ => ?_
  have hk := contrEquiv1_symm_val dot_S100000x128_S128x64_S100000x64_1_0_0_1_n_n 128 rfl rfl k
  have el : dot_S100000x128_S128x64_S100000x64_1_0_0_1_n_n.lhsIdx (ix2 r s) ((contrEquiv1 dot_S100000x128_S128x64_S100000x64_1_0_0_1_n_n 128 rfl rfl).symm k) = ix2 r k := funext fun a => Fin.ext (by
    match a with
    | ⟨0, _⟩ => exact lhs_row64 _ _
    | ⟨1, _⟩ => exact (lhs_col64 _ _).trans hk)
  have er : dot_S100000x128_S128x64_S100000x64_1_0_0_1_n_n.rhsIdx (ix2 r s) ((contrEquiv1 dot_S100000x128_S128x64_S100000x64_1_0_0_1_n_n 128 rfl rfl).symm k) = ix2 k s := funext fun a => Fin.ext (by
    match a with
    | ⟨0, _⟩ => exact (rhs_row64 _ _).trans hk
    | ⟨1, _⟩ => exact rhs_col64 _ _)
  rw [el, er]

/-! ### Bias rows and the clamp -/

/-- The bias laid out as 100000 equal rows, read at (r, k): the bias at `k`. -/
theorem rows128_apply (b : FVec Ideal S128 .f32) (r : Fin 100000) (k : Fin 128) : rows128 b (ix2 r k) = b (ix1 k) := by
  unfold rows128
  rw [broadcastInDim_apply ![0, 1] bcast_S1x128_S100000x128_0_1 _ (ix2 r k) (ix2 (0 : Fin 1) k) (fun a => by
    match a with
    | ⟨0, _⟩ => rfl
    | ⟨1, _⟩ => rfl)]
  exact broadcastInDim_apply ![1] bcast_S128_S1x128_1 b (ix2 (0 : Fin 1) k) (ix1 k) (fun a => by
    match a with
    | ⟨0, _⟩ => rfl)

/-- Adding the bias rows and clamping at zero is `biasRelu` with any one-row matrix that holds the bias. -/
theorem relu_bias_eq (a : Feat128) (b : FVec Ideal S128 .f32) (br : Mat 1 128) (hb : ∀ k : Fin 128, br (ix2 (0 : Fin 1) k) = b (ix1 k)) :
    relu128 (addf a (rows128 b)) = biasRelu (a : Mat 100000 128) br := by
  funext i
  obtain ⟨r, k, rfl⟩ : ∃ (r : Fin 100000) (k : Fin 128), i = ix2 r k := ⟨i 0, i 1, eq_ix2 i⟩
  show max (a (ix2 r k) + rows128 b (ix2 r k)) (Ideal.ofBits .f32 0x00000000#32) = max (a (ix2 r k) + br (ix2 (0 : Fin 1) k)) 0
  rw [rows128_apply, Ideal.ofBits_zero_f32, hb k]

/-! ### The two outputs are one function -/

/-- The reference's output is the kernel-shaped one, for bias rows that hold the bias vectors. -/
theorem refOut_eq_kernelOut (x : Feat128) (ei : Edges) (w1 : FVec Ideal S128x128 .f32) (b1 : FVec Ideal S128 .f32)
    (w2 : FVec Ideal S128x128 .f32) (b2 : FVec Ideal S128 .f32) (w3 : FVec Ideal S128x64 .f32) (b3 : FVec Ideal S64 .f32)
    (b1r b2r : Mat 1 128) (h1 : ∀ k : Fin 128, b1r (ix2 (0 : Fin 1) k) = b1 (ix1 k)) (h2 : ∀ k : Fin 128, b2r (ix2 (0 : Fin 1) k) = b2 (ix1 k)) :
    refOut x ei w1 b1 w2 b2 w3 b3 = kernelOut x ei w1 b1r w2 b2r w3 b3 := by
  unfold refOut kernelOut
  rw [dot128_eq_dense x w1, relu_bias_eq _ b1 b1r h1, dot128_eq_dense _ w2, relu_bias_eq _ b2 b2r h2, dot64_eq_dense _ w3]

end Cert.Gcn.Stage

end
-- ==== Proof.lean ====
/-
  A three-layer graph convolution network over 100000 nodes and 640000 edges: the Pallas program against its jnp
  reference, at the exact values (every float an extended real, every change of float format the identity).

  Both programs compute the same graph side from the edge list with the same host operations — endpoints with
  self-loops, in-degrees, inverse square-root degrees, edge weights — and both run, three times, "project the node
  features by a weight matrix, gather the projected rows at the sources, scale by the edge weight, sum into the
  targets, add the bias", clamping at zero between layers. They differ in two ways only. The reference projects with
  one host matrix product per layer; the kernel projects in a pipelined region of ten grid points, each multiplying a
  block of 10000 rows by the whole weight matrix, and stores the product in bf16. And the kernel fuses each layer's
  bias-and-clamp into the next region's prologue instead of applying it on the host. At the exact values a row of a
  matrix product does not depend on which block computed it, the bf16 store changes nothing, and bias-then-clamp is the
  same pointwise function wherever it runs: the two results are equal, entry by entry, with no use of finiteness.

  The modules: `Spec` (the plain-sum matrix product and bias-then-clamp), `Block` (one grid point's stored block at
  an index), `Region0/1/2` (a region's result array as one whole-array function of what it finds on entry),
  `KernelRun` (the kernel's run with its result buffer named), `Stages` (the graph side and a layer's neighbourhood
  sum), `Carry` and `Chain` (the kernel's result as a function of its arguments, boundary by boundary), `RefRun` (the
  reference's run read back) and `RefLaws` (the two laws that join the outputs).

  The three frame claims are the generated frames of the two kernel programs and the reference's run with its result
  dropped; the idealization rewrote nothing, so `preserves` is trivial.
-/
import proofs.«170115_j5995774345336_2_alg».proof.Defs
import proofs.«170115_j5995774345336_2_alg».proof.Proof.Gen.Kernel
import proofs.«170115_j5995774345336_2_alg».proof.Proof.Gen.Kernel.Skeleton
import proofs.«170115_j5995774345336_2_alg».proof.Proof.Gen.Kernel.Launch
import proofs.«170115_j5995774345336_2_alg».proof.Proof.Gen.Kernel.Points
import proofs.«170115_j5995774345336_2_alg».proof.Proof.Gen.Kernel.Frame
import proofs.«170115_j5995774345336_2_alg».proof.Proof.Gen.KernelIdeal
import proofs.«170115_j5995774345336_2_alg».proof.Proof.Gen.KernelIdeal.Skeleton
import proofs.«170115_j5995774345336_2_alg».proof.Proof.Gen.KernelIdeal.Launch
import proofs.«170115_j5995774345336_2_alg».proof.Proof.Gen.KernelIdeal.Points
import proofs.«170115_j5995774345336_2_alg».proof.Proof.Gen.KernelIdeal.Frame
import proofs.«170115_j5995774345336_2_alg».proof.Proof.Gen.ReferenceIdeal
import proofs.«170115_j5995774345336_2_alg».proof.Proof.Gen.Pre_finite_inputs
import proofs.«170115_j5995774345336_2_alg».proof.Proof.KernelRun
import proofs.«170115_j5995774345336_2_alg».proof.Proof.Chain
import proofs.«170115_j5995774345336_2_alg».proof.Proof.RefRun
import proofs.«170115_j5995774345336_2_alg».proof.Proof.RefLaws
import Idealize.ShloMosaic.Lib.ValueLayout
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.Gcn.RefRun.run m ρ)

/-- The idealization rewrote no operation. -/
theorem preserves : Cert.preserves_Kernel_KernelIdeal := trivial

/-- A 128-vector laid out as a one-row matrix holds the vector: entry (0, k) is entry k. -/
theorem row_of_vector (b : (⟨1, ![128]⟩ : Shape).Idx → EReal) (h : (⟨1, ![128]⟩ : Shape).ShapeCasts ⟨2, ![1, 128]⟩) (k : Fin 128) :
    shapeCast ⟨2, ![1, 128]⟩ b h (ix2 (0 : Fin 1) k) = b (ix1 k) :=
  shapeCast_a_1a_apply b h 0 k

/-- From memories agreeing on the arguments both programs end with the kernel-shaped output of the argument arrays:
    the kernel by its fold through the three regions, the reference by its run and the two joining laws. -/
theorem algebraic : Cert.algebraic_KernelIdeal_ReferenceIdeal := by
  intro m ρ m' ρ' _ hagree
  refine ⟨fun c => Cert.Gcn.Stage.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (Cert.Gcn.Chain.bias1 m c) (m ((c.tc : Thread Cert.KernelIdeal.nD Cert.KernelIdeal.τ).loc Cert.KernelIdeal.main_arg4)) (Cert.Gcn.Chain.bias2 m c) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun _ h c => ⟨(h c).1.trans (Cert.Gcn.Chain.result m ρ c), (h c).2⟩)
      (Cert.Gcn.KernelRun.run m ρ)
  · refine (θ_run Cert.ReferenceIdeal.defs _ _).mono (fun _ h c => ⟨(h c).1.trans ?_, (h c).2⟩) (Cert.Gcn.RefRun.run m' ρ')
    obtain ⟨e0, e1, e2, e3, e4, e5, e6, e7⟩ := hagree c
    rw [e0, e1, e2, e3, e4, e5, e6, e7]
    exact Cert.Gcn.Stage.refOut_eq_kernelOut _ _ _ _ _ _ _ _ _ _ (fun k => row_of_vector _ _ k) (fun k => row_of_vector _ _ k)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
